-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x256 : Shape := ⟨2, ![128, 256]⟩
abbrev S256 : Shape := ⟨1, ![256]⟩
abbrev S256x7 : Shape := ⟨2, ![256, 7]⟩
abbrev S7 : Shape := ⟨1, ![7]⟩
abbrev S256x6 : Shape := ⟨2, ![256, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_
  bcast_S_S256x6 : S_.BroadcastsInDim S256x6 (![] : Fin 0 → Fin S256x6.rank)
  reducesTo_S256x6_S_d0_1 : S256x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg8 : FVec F S6 .f32) (main_v33 : IVec S_ 1) : IVec S_ 1 :=
  let main_v34 : FVec F S6 .f32 := Host.absf main_arg8
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  main_v38

def fn_part1 {F : FTy → Type} [FloatOps F] (main_arg5 : FVec F S256x7 .f32) (main_arg6 : FVec F S7 .f32) (main_arg7 : FVec F S256x6 .f32) (main_arg8 : FVec F S6 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x7 .f32 := Host.absf main_arg5
  let main_cst_6 : FVec F S_ .f32 := constant S_ .f32 0x7F800000#32
  let main_v20 : FVec F S256x7 .f32 := broadcastInDim S256x7 ![] bcast_S_S256x7 main_cst_6
  let main_v21 : IVec S256x7 1 := cmpf .olt main_v19 main_v20
  let main_c_7 : IVec S_ 1 := constantI S_ 1 1#1
  let main_v22 : IVec S_ 1 := (fun x v => Host.reduce IntOp.andi x v reducesTo_S256x7_S_d0_1 h_S_) main_v21 main_c_7
  let main_v23 : IVec S_ 1 := andi main_v18 main_v22
  let main_v24 : FVec F S7 .f32 := Host.absf main_arg6
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  let main_v29 : FVec F S256x6 .f32 := Host.absf main_arg7
  let main_cst_10 : FVec F S_ .f32 := constant S_ .f32 0x7F800000#32
  let main_v30 : FVec F S256x6 .f32 := broadcastInDim S256x6 ![] bcast_S_S256x6 main_cst_10
  let main_v31 : IVec S256x6 1 := cmpf .olt main_v29 main_v30
  let main_c_11 : IVec S_ 1 := constantI S_ 1 1#1
  let main_v32 : IVec S_ 1 := (fun x v => Host.reduce IntOp.andi x v reducesTo_S256x6_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x625000 32) (main_arg2 : FVec F S128x256 .f32) (main_arg3 : FVec F S256 .f32) (main_arg4 : FVec F S128x256 .f32) (main_arg5 : FVec F S256x7 .f32) (main_arg6 : FVec F S7 .f32) (main_arg7 : FVec F S256x6 .f32) (main_arg8 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_v13 main_v16
-- ==== Kernel.lean ====
abbrev S100000x128 : Shape := ⟨2, ![100000, 128]⟩
abbrev S2x625000 : Shape := ⟨2, ![2, 625000]⟩
abbrev S128x256 : Shape := ⟨2, ![128, 256]⟩
abbrev S256 : Shape := ⟨1, ![256]⟩
abbrev S256x7 : Shape := ⟨2, ![256, 7]⟩
abbrev S7 : Shape := ⟨1, ![7]⟩
abbrev S256x6 : Shape := ⟨2, ![256, 6]⟩
abbrev S6 : Shape := ⟨1, ![6]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S256x13 : Shape := ⟨2, ![256, 13]⟩
abbrev S13 : Shape := ⟨1, ![13]⟩
abbrev S1x13 : Shape := ⟨2, ![1, 13]⟩
abbrev S1x256 : Shape := ⟨2, ![1, 256]⟩
abbrev S100000x7 : Shape := ⟨2, ![100000, 7]⟩
abbrev S100000x6 : Shape := ⟨2, ![100000, 6]⟩
abbrev S4000x128 : Shape := ⟨2, ![4000, 128]⟩
abbrev S4000x1 : Shape := ⟨2, ![4000, 1]⟩
abbrev S4000x7 : Shape := ⟨2, ![4000, 7]⟩
abbrev S4000x6 : Shape := ⟨2, ![4000, 6]⟩
abbrev S4000x256 : Shape := ⟨2, ![4000, 256]⟩
abbrev S4000x13 : Shape := ⟨2, ![4000, 13]⟩
abbrev S4000 : Shape := ⟨1, ![4000]⟩

abbrev nBuf : Space → Nat
  | .hbm => 49
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x7, .f32⟩
  | .hbm, ⟨6, _⟩ => ⟨S7, .f32⟩
  | .hbm, ⟨7, _⟩ => ⟨S256x6, .f32⟩
  | .hbm, ⟨8, _⟩ => ⟨S6, .f32⟩
  | .hbm, ⟨9, _⟩ => ⟨S1x625000, .i32⟩
  | .hbm, ⟨10, _⟩ => ⟨S625000, .i32⟩
  | .hbm, ⟨11, _⟩ => ⟨S1x625000, .i32⟩
  | .hbm, ⟨12, _⟩ => ⟨S625000, .i32⟩
  | .hbm, ⟨13, _⟩ => ⟨S_, .i32⟩
  | .hbm, ⟨14, _⟩ => ⟨S625000, .i32⟩
  | .hbm, ⟨15, _⟩ => ⟨S625000, .i1⟩
  | .hbm, ⟨16, _⟩ => ⟨S_, .i32⟩
  | .hbm, ⟨17, _⟩ => ⟨S625000, .i32⟩
  | .hbm, ⟨18, _⟩ => ⟨S625000, .i32⟩
  | .hbm, ⟨19, _⟩ => ⟨S625000, .i32⟩
  | .hbm, ⟨20, _⟩ => ⟨S625000x1, .i32⟩
  | .hbm, ⟨21, _⟩ => ⟨S625000x128, .f32⟩
  | .hbm, ⟨22, _⟩ => ⟨S_, .f32⟩
  | .hbm, ⟨23, _⟩ => ⟨S100000x128, .f32⟩
  | .hbm, ⟨24, _⟩ => ⟨S625000x1, .i32⟩
  | .hbm, ⟨25, _⟩ => ⟨S100000x128, .f32⟩
  | .hbm, ⟨26, _⟩ => ⟨S_, .f32⟩
  | .hbm, ⟨27, _⟩ => ⟨S625000, .f32⟩
  | .hbm, ⟨28, _⟩ => ⟨S_, .f32⟩
  | .hbm, ⟨29, _⟩ => ⟨S100000, .f32⟩
  | .hbm, ⟨30, _⟩ => ⟨S625000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .bf16⟩
  | .hbm, ⟨40, _⟩ => ⟨S128x256, .bf16⟩
  | .hbm, ⟨41, _⟩ => ⟨S128x256, .bf16⟩
  | .hbm, ⟨42, _⟩ => ⟨S256x13, .f32⟩
  | .hbm, ⟨43, _⟩ => ⟨S256x13, .bf16⟩
  | .hbm, ⟨44, _⟩ => ⟨S13, .f32⟩
  | .hbm, ⟨45, _⟩ => ⟨S1x13, .f32⟩
  | .hbm, ⟨46, _⟩ => ⟨S1x256, .f32⟩
  | .hbm, ⟨47, _⟩ => ⟨S100000x7, .f32⟩
  | .hbm, ⟨48, _⟩ => ⟨S100000x6, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .bf16⟩
  | .local _ .vmem, ⟨5, _⟩ => ⟨S4000x128, .bf16⟩
  | .local _ .vmem, ⟨6, _⟩ => ⟨S128x256, .bf16⟩
  | .local _ .vmem, ⟨7, _⟩ => ⟨S1x256, .f32⟩
  | .local _ .vmem, ⟨8, _⟩ => ⟨S128x256, .bf16⟩
  | .local _ .vmem, ⟨9, _⟩ => ⟨S256x13, .bf16⟩
  | .local _ .vmem, ⟨10, _⟩ => ⟨S1x13, .f32⟩
  | .local _ .vmem, ⟨11, _⟩ => ⟨S4000x7, .f32⟩
  | .local _ .vmem, ⟨12, _⟩ => ⟨S4000x7, .f32⟩
  | .local _ .vmem, ⟨13, _⟩ => ⟨S4000x6, .f32⟩
  | .local _ .vmem, ⟨14, _⟩ => ⟨S4000x6, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x13 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x13 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x7 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x6 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  bitsLt_bf16_f32 : FTy.bits .bf16 < FTy.bits .f32
  concatenates_S256x7_S256x6_S256x13_d1 : Shape.Concatenates [S256x7, S256x6] S256x13 1
  concatenates_S7_S6_S13_d0 : Shape.Concatenates [S7, S6] S13 0
  shapeCasts_S13_S1x13 : S13.ShapeCasts S1x13
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x13_S256x13_0_0 : ∀ a, (![0, 0] : Fin 2 → Nat) a + S256x13.size a ≤ S256x13.size a
  h_S256x13 : 0 < S256x13.numel
  shapeCasts_S256x13_S256x13 : S256x13.ShapeCasts S256x13
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S4000x13 : S1x13.Broadcasts S4000x13
  slices_S4000x13_o0_0_S4000x7 : S4000x13.Slices ![0, 0] S4000x7
  slices_S4000x13_o0_7_S4000x6 : S4000x13.Slices ![0, 7] S4000x6
  reduces_S4000x7_S4000 : S4000x7.Reduces [1] S4000
  shapeCasts_S4000_S4000x1 : S4000.ShapeCasts S4000x1
  broadcasts_S4000x1_S4000x7 : S4000x1.Broadcasts S4000x7
  inb_S4000x7_S4000x7_0_0 : ∀ a, (![0, 0] : Fin 2 → Nat) a + S4000x7.size a ≤ S4000x7.size a
  h_S4000x7 : 0 < S4000x7.numel
  reduces_S4000x6_S4000 : S4000x6.Reduces [1] S4000
  broadcasts_S4000x1_S4000x6 : S4000x1.Broadcasts S4000x6
  inb_S4000x6_S4000x6_0_0 : ∀ a, (![0, 0] : Fin 2 → Nat) a + S4000x6.size a ≤ S4000x6.size a
  h_S4000x6 : 0 < S4000x6.numel
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S4000x128_S128x256_S4000x256_1_0_0_1_n_n_wf : DotDims.WF S4000x128 S128x256 S4000x256 [1] [0] [0] [1] [] []
  dot_S4000x256_S256x13_S4000x13_1_0_0_1_n_n_wf : DotDims.WF S4000x256 S256x13 S4000x13 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x13.size a ≤ S256x13.size a
  hwx0_6 : ∀ i : grid0.Coords, EltTy.bits .bf16 = 32 ∨ (Rect.block (s := S256x13) S256x13.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x13.size a ≤ S1x13.size a
  hwx0_7 : ∀ i : grid0.Coords, EltTy.bits .f32 = 32 ∨ (Rect.block (s := S1x13) S1x13.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x7.size a ≤ S100000x7.size a
  hwx0_8 : ∀ i : grid0.Coords, EltTy.bits .f32 = 32 ∨ (Rect.block (s := S100000x7) S4000x7.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x6.size a ≤ S100000x6.size a
  hwx0_9 : ∀ i : grid0.Coords, EltTy.bits .f32 = 32 ∨ (Rect.block (s := S100000x6) S4000x6.size (cc0_transform_9 i) (hinb0_9 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x13_S4000x13_1_0_0_1_n_n : DotDims S4000x256 S256x13 S4000x13 where
  lhsContracting := [1]
  rhsContracting := [0]
  lhsNonContracting := [0]
  rhsNonContracting := [1]
  lhsBatch := []
  rhsBatch := []
  wf := dot_S4000x256_S256x13_S4000x13_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S256x13.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x13.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31_0) S4000x7.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v31_1) S4000x6.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x256 : Shape := ⟨2, ![128, 256]⟩
abbrev S256 : Shape := ⟨1, ![256]⟩
abbrev S256x7 : Shape := ⟨2, ![256, 7]⟩
abbrev S7 : Shape := ⟨1, ![7]⟩
abbrev S256x6 : Shape := ⟨2, ![256, 6]⟩
abbrev S6 : Shape := ⟨1, ![6]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S100000x7 : Shape := ⟨2, ![100000, 7]⟩
abbrev S1x7 : Shape := ⟨2, ![1, 7]⟩
abbrev S100000x6 : Shape := ⟨2, ![100000, 6]⟩
abbrev S1x6 : Shape := ⟨2, ![1, 6]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x7, .f32⟩
  | .hbm, ⟨6, _⟩ => ⟨S7, .f32⟩
  | .hbm, ⟨7, _⟩ => ⟨S256x6, .f32⟩
  | .hbm, ⟨8, _⟩ => ⟨S6, .f32⟩
  | .hbm, ⟨9, _⟩ => ⟨S1x625000, .i32⟩
  | .hbm, ⟨10, _⟩ => ⟨S625000, .i32⟩
  | .hbm, ⟨11, _⟩ => ⟨S1x625000, .i32⟩
  | .hbm, ⟨12, _⟩ => ⟨S625000, .i32⟩
  | .hbm, ⟨13, _⟩ => ⟨S_, .i32⟩
  | .hbm, ⟨14, _⟩ => ⟨S625000, .i32⟩
  | .hbm, ⟨15, _⟩ => ⟨S625000, .i1⟩
  | .hbm, ⟨16, _⟩ => ⟨S_, .i32⟩
  | .hbm, ⟨17, _⟩ => ⟨S625000, .i32⟩
  | .hbm, ⟨18, _⟩ => ⟨S625000, .i32⟩
  | .hbm, ⟨19, _⟩ => ⟨S625000, .i32⟩
  | .hbm, ⟨20, _⟩ => ⟨S625000x1, .i32⟩
  | .hbm, ⟨21, _⟩ => ⟨S625000x128, .f32⟩
  | .hbm, ⟨22, _⟩ => ⟨S_, .f32⟩
  | .hbm, ⟨23, _⟩ => ⟨S100000x128, .f32⟩
  | .hbm, ⟨24, _⟩ => ⟨S625000x1, .i32⟩
  | .hbm, ⟨25, _⟩ => ⟨S100000x128, .f32⟩
  | .hbm, ⟨26, _⟩ => ⟨S_, .f32⟩
  | .hbm, ⟨27, _⟩ => ⟨S625000, .f32⟩
  | .hbm, ⟨28, _⟩ => ⟨S_, .f32⟩
  | .hbm, ⟨29, _⟩ => ⟨S100000, .f32⟩
  | .hbm, ⟨30, _⟩ => ⟨S625000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x256, .f32⟩
  | .hbm, ⟨39, _⟩ => ⟨S1x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S100000x256, .f32⟩
  | .hbm, ⟨44, _⟩ => ⟨S_, .f32⟩
  | .hbm, ⟨45, _⟩ => ⟨S100000x256, .f32⟩
  | .hbm, ⟨46, _⟩ => ⟨S100000x256, .f32⟩
  | .hbm, ⟨47, _⟩ => ⟨S100000x7, .f32⟩
  | .hbm, ⟨48, _⟩ => ⟨S1x7, .f32⟩
  | .hbm, ⟨49, _⟩ => ⟨S100000x7, .f32⟩
  | .hbm, ⟨50, _⟩ => ⟨S100000x7, .f32⟩
  | .hbm, ⟨51, _⟩ => ⟨S100000x6, .f32⟩
  | .hbm, ⟨52, _⟩ => ⟨S1x6, .f32⟩
  | .hbm, ⟨53, _⟩ => ⟨S100000x6, .f32⟩
  | .hbm, ⟨54, _⟩ => ⟨S100000x6, .f32⟩
  | .hbm, ⟨55, _⟩ => ⟨S_, .f32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x7, .f32⟩
  | .hbm, ⟨62, _⟩ => ⟨S100000x7, .f32⟩
  | .hbm, ⟨63, _⟩ => ⟨S100000x7, .f32⟩
  | .hbm, ⟨64, _⟩ => ⟨S_, .f32⟩
  | .hbm, ⟨65, _⟩ => ⟨S100000, .f32⟩
  | .hbm, ⟨66, _⟩ => ⟨S100000x1, .f32⟩
  | .hbm, ⟨67, _⟩ => ⟨S100000x1, .f32⟩
  | .hbm, ⟨68, _⟩ => ⟨S100000x7, .f32⟩
  | .hbm, ⟨69, _⟩ => ⟨S100000x7, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x6, .f32⟩
  | .hbm, ⟨77, _⟩ => ⟨S100000x6, .f32⟩
  | .hbm, ⟨78, _⟩ => ⟨S100000x6, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S100000x1, .f32⟩
  | .hbm, ⟨83, _⟩ => ⟨S100000x6, .f32⟩
  | .hbm, ⟨84, _⟩ => ⟨S100000x6, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_cst : Ref sig .tc := ⟨.hbm, 55, rfl⟩
abbrev main_call1_v0 : Ref sig .tc := ⟨.hbm, 56, rfl⟩
abbrev main_call1_cst_0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_cst_1 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_v38 : Ref sig .tc := ⟨.hbm, 69, rfl⟩
abbrev main_call2_cst : Ref sig .tc := ⟨.hbm, 70, rfl⟩
abbrev main_call2_v0 : Ref sig .tc := ⟨.hbm, 71, rfl⟩
abbrev main_call2_cst_0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_cst_1 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_v39 : Ref sig .tc := ⟨.hbm, 84, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  reducesTo_S100000x7_S100000_d1 : S100000x7.ReducesTo [1] S100000
  h_S_ : 0 < S_.numel
  bcast_S100000x1_S100000x7_0_1 : S100000x1.BroadcastsInDim S100000x7 (![0, 1] : Fin 2 → Fin S100000x7.rank)
  reducesTo_S100000x6_S100000_d1 : S100000x6.ReducesTo [1] S100000
  bcast_S100000x1_S100000x6_0_1 : S100000x1.BroadcastsInDim S100000x6 (![0, 1] : Fin 2 → Fin S100000x6.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x256_S100000x256_1_0_0_1_n_n_wf : DotDims.WF S100000x128 S128x256 S100000x256 [1] [0] [0] [1] [] []
  dot_S100000x256_S256x7_S100000x7_1_0_0_1_n_n_wf : DotDims.WF S100000x256 S256x7 S100000x7 [1] [0] [0] [1] [] []
  dot_S100000x256_S256x6_S100000x6_1_0_0_1_n_n_wf : DotDims.WF S100000x256 S256x6 S100000x6 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x7_S100000x7_1_0_0_1_n_n : DotDims S100000x256 S256x7 S100000x7 where
  lhsContracting := [1]
  rhsContracting := [0]
  lhsNonContracting := [0]
  rhsNonContracting := [1]
  lhsBatch := []
  rhsBatch := []
  wf := dot_S100000x256_S256x7_S100000x7_1_0_0_1_n_n_wf
def dot_S100000x256_S256x6_S100000x6_1_0_0_1_n_n : DotDims S100000x256 S256x6 S100000x6 where
  lhsContracting := [1]
  rhsContracting := [0]
  lhsNonContracting := [0]
  rhsNonContracting := [1]
  lhsBatch := []
  rhsBatch := []
  wf := dot_S100000x256_S256x6_S100000x6_1_0_0_1_n_n_wf

class Facts : Prop extends Facts₀ where

variable [Facts]
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Reductions along the rows of a matrix, read at one row, over the extended reals.

  For an `[a, n]` matrix `Y` reduced over its second axis to an `[a]` vector, entry `p` of the result depends on row
  `p` only:
  * a vector maximum reduction from the accumulator pattern `acc` is the fold of `max` from `acc`'s value over
    `Y (p, 0), …, Y (p, n − 1)`;
  * a vector sum reduction from the zero accumulator is `Σ_j Y (p, j)`;
  * the host's reduce with a maximum body from the initial value `init` is the same fold from `init`.
  The point put back into the reduced index `p` at coordinate `k` of the reduced axis is `(p, k)`.
-/
import Idealize.ShloMosaic.PureOps.Ideal.Laws
import Idealize.ShloMosaic.Lib.ValueIdx

noncomputable section

open scoped BigOperators

namespace Cert.Lib

open Idealize.ShloMosaic Idealize.ShloMosaic.ValueIdx

/-- The reduced index `p` with coordinate `k` of the second axis put back is `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A vector maximum reduction along the rows, at row `p`: the fold of `max` from the accumulator's value over the row. -/
theorem laneMax_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) Y acc h hφ hacc (ix1 p)
      = (Finset.univ : Finset (Fin n)).fold max (Ideal.ofBits .f32 acc) (fun j => Y (ix2 p j)) := by
  rw [Ideal.multiReduction_maximumf_single]
  have hf : (Y ∘ h.lift (ix1 p)) = fun k : Fin n => Y (ix2 p k) := funext fun k => congrArg Y (lift_row h p k)
  exact congrArg (fun f => Finset.fold max (Ideal.ofBits .f32 acc) f (Finset.univ : Finset (Fin n))) hf

/-- A vector sum reduction along the rows, at row `p`: the sum of the row. -/
theorem laneSum_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (p : Fin a) :
    multiReduction .add [1] (⟨1, ![a]⟩ : Shape) Y acc h hφ hacc (ix1 p) = ∑ j : Fin n, Y (ix2 p j) := by
  rw [Ideal.multiReduction_add_single]
  exact Finset.sum_congr rfl fun k _ => congrArg Y (lift_row h p k)

/-- The host's reduce with a maximum body along the rows, at row `p`: the fold of `max` from the initial value over the row. -/
theorem hostMax_apply {a n : ℕ} (Y : FVec Ideal ⟨2, ![a, n]⟩ .f32) (init : (⟨0, ![]⟩ : Shape).Idx → Ideal .f32)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf Y init h' hu (ix1 p)
      = (Finset.univ : Finset (Fin n)).fold max (init (Shape.Idx.first hu)) (fun j => Y (ix2 p j)) := by
  rw [Host.reduce_eq_fold_single FloatOps.maximumf Y _ h' h hu]
  have hf : (Y ∘ h.lift (ix1 p)) = fun k : Fin n => Y (ix2 p k) := funext fun k => congrArg Y (lift_row h p k)
  exact congrArg (fun f => Finset.fold max (init (Shape.Idx.first hu)) f (Finset.univ : Finset (Fin n))) hf

end Cert.Lib

end
-- ==== Proof.LibLogSoftmax.lean ====
/-
  A log-softmax along the rows of a matrix, read at one entry, over the extended reals.

  For a row `z` of `n` numbers, with `M` its largest entry taken from −∞ (the f32 pattern `0xFF800000`),
    logSoftmax z j = (z j − M) − log Σ_j' exp (z j' − M).
  A program computes it on an `[a, n]` matrix `Y` with vector operations: a maximum reduction along the rows from
  −∞, the result viewed as an `[a, 1]` column and spread back to `[a, n]`, a subtraction, an exponential, a sum
  reduction along the rows from zero, a logarithm, the same column-and-spread, and a last subtraction. Entry `(p, q)`
  of that is the log-softmax of row `p` at `q` (`logSoftmax_rows_apply`): every step reads row `p` only.
  Taking the maximum with the starting value once more changes nothing (`max_start_rowMax`), which is how a host
  program that guards its row maximum with `max (−∞) ·` agrees.
-/
import Idealize.ShloMosaic.PureOps.Ideal.Laws
import Idealize.ShloMosaic.Lib.ValueIdx
import Idealize.ShloMosaic.Lib.Pipeline.Value
import proofs.«162632_j91268055040046_2_alg».proof.Proof.LibColumn
import proofs.«162632_j91268055040046_2_alg».proof.Proof.LibRowReduce

noncomputable section

open scoped BigOperators

namespace Cert.Lib

open Idealize.ShloMosaic Idealize.ShloMosaic.ValueIdx

/-- The largest entry of a row, taken from the value of the f32 pattern of −∞. -/
def rowMax {n : ℕ} (z : Fin n → EReal) : EReal :=
  (Finset.univ : Finset (Fin n)).fold max (Ideal.ofBits .f32 0xFF800000#32) z

/-- The log-softmax of a row at class `j`. -/
def logSoftmax {n : ℕ} (z : Fin n → EReal) (j : Fin n) : EReal :=
  (z j - rowMax z) - Ideal.log (∑ j' : Fin n, Ideal.exp (z j' - rowMax z))

/-- The starting value is below the row maximum, so one more maximum with it changes nothing. -/
theorem max_start_rowMax {n : ℕ} (z : Fin n → EReal) : max (Ideal.ofBits .f32 0xFF800000#32) (rowMax z) = rowMax z :=
  max_eq_right ((Finset.le_fold_max (b := Ideal.ofBits .f32 0xFF800000#32) (f := z) (s := Finset.univ) _).mpr (Or.inl le_rfl))

/-- The row maximum as the vector reduction computes it. -/
theorem laneMax_eq_rowMax {a n : ℕ} (Y : FVec Ideal ⟨2, ![a, n]⟩ .f32)
    (hr : (⟨2, ![a, n]⟩ : Shape).Reduces [1] (⟨1, ![a]⟩ : Shape)) (hφ : FKind.Formats .f32)
    (hmax : (0xFF800000#32 : BitVec 32) = FKind.maximumf.neutral .f32 hφ) (p : Fin a) :
    multiReduction .maximumf [1] (⟨1, ![a]⟩ : Shape) Y 0xFF800000#32 hr hφ hmax (ix1 p) = rowMax fun j => Y (ix2 p j) :=
  laneMax_apply Y _ hr hφ hmax p

/-- The tail of the log-softmax once the row maxima `M` are known at row `p`: shift, exponentiate, sum along the row,
    take the logarithm, shift again. -/
theorem logSoftmax_tail_apply {a n : ℕ} (Y : FVec Ideal ⟨2, ![a, n]⟩ .f32) (M : FVec Ideal ⟨1, ![a]⟩ .f32)
    (hr : (⟨2, ![a, n]⟩ : Shape).Reduces [1] (⟨1, ![a]⟩ : Shape))
    (hc : (⟨1, ![a]⟩ : Shape).ShapeCasts ⟨2, ![a, 1]⟩) (hb : (⟨2, ![a, 1]⟩ : Shape).Broadcasts ⟨2, ![a, n]⟩)
    (hφ : FKind.Formats .f32) (hadd : (0x00000000#32 : BitVec 32) = FKind.add.neutral .f32 hφ)
    (p : Fin a) (q : Fin n) (μ : EReal) (hM : M (ix1 p) = μ) :
    (Y (ix2 p q) - M (ix1 p))
        - Ideal.log (multiReduction .add [1] (⟨1, ![a]⟩ : Shape)
            (exp (subf Y (broadcastTo ⟨2, ![a, n]⟩ (shapeCast ⟨2, ![a, 1]⟩ M hc) hb))) 0x00000000#32 hr hφ hadd (ix1 p))
      = (Y (ix2 p q) - μ) - Ideal.log (∑ j : Fin n, Ideal.exp (Y (ix2 p j) - μ)) := by
  have hS : multiReduction .add [1] (⟨1, ![a]⟩ : Shape)
        (exp (subf Y (broadcastTo ⟨2, ![a, n]⟩ (shapeCast ⟨2, ![a, 1]⟩ M hc) hb))) 0x00000000#32 hr hφ hadd (ix1 p)
      = ∑ j : Fin n, Ideal.exp (Y (ix2 p j) - μ) := by
    refine (laneSum_apply _ _ hr hφ hadd p).trans (Finset.sum_congr rfl fun j _ => ?_)
    show Ideal.exp (Y (ix2 p j) - broadcastTo ⟨2, ![a, n]⟩ (shapeCast ⟨2, ![a, 1]⟩ M hc) hb (ix2 p j)) = _
    rw [broadcastTo_a1_ab_apply, shapeCast_a_a1_apply, hM]
  rw [hS, hM]

/-- ENTRY `(p, q)` OF THE VECTOR-OPERATION LOG-SOFTMAX along the rows of `Y` is the log-softmax of row `p` at `q`. -/
theorem logSoftmax_rows_apply {a n : ℕ} (Y : FVec Ideal ⟨2, ![a, n]⟩ .f32)
    (hr : (⟨2, ![a, n]⟩ : Shape).Reduces [1] (⟨1, ![a]⟩ : Shape))
    (hc : (⟨1, ![a]⟩ : Shape).ShapeCasts ⟨2, ![a, 1]⟩) (hb : (⟨2, ![a, 1]⟩ : Shape).Broadcasts ⟨2, ![a, n]⟩)
    (hφ : FKind.Formats .f32) (hmax : (0xFF800000#32 : BitVec 32) = FKind.maximumf.neutral .f32 hφ)
    (hadd : (0x00000000#32 : BitVec 32) = FKind.add.neutral .f32 hφ) (p : Fin a) (q : Fin n) :
    (Y (ix2 p q) - multiReduction .maximumf [1] (⟨1, ![a]⟩ : Shape) Y 0xFF800000#32 hr hφ hmax (ix1 p))
        - Ideal.log (multiReduction .add [1] (⟨1, ![a]⟩ : Shape)
            (exp (subf Y (broadcastTo ⟨2, ![a, n]⟩
              (shapeCast ⟨2, ![a, 1]⟩ (multiReduction .maximumf [1] (⟨1, ![a]⟩ : Shape) Y 0xFF800000#32 hr hφ hmax) hc) hb)))
            0x00000000#32 hr hφ hadd (ix1 p))
      = logSoftmax (fun j => Y (ix2 p j)) q :=
  logSoftmax_tail_apply Y _ hr hc hb hφ hadd p q _ (laneMax_eq_rowMax Y hr hφ hmax p)

end Cert.Lib

end
-- ==== Proof.Spec.lean ====
/-
  One node of a mean-aggregating graph layer with two classification heads, over the extended reals.

  For a node with neighbour-feature sum `a` (a row of 128 numbers), neighbour count bounded below by one `c`,
  and own features `x`, the layer computes
    mean d   = a d / c,
    h k      = max (Σ_d mean d · W_l(d,k) + Σ_d x d · W_r(d,k) + b_l k) 0          (256 hidden units),
    z j      = Σ_k h k · W(k,j) + b j                                              (a head of n classes),
    out j    = (z j − M) − log Σ_j' exp (z j' − M),   M = the largest z, taken from −∞   (log-softmax).
  This file states those row functions and two of the laws by which two programs that spell the layer
  differently agree:
  * the three summands of the hidden unit may be added in either order (addition of extended reals is
    commutative and associative, infinities included);
  * multiplying by the reciprocal of a divisor that is not zero IS dividing by it (`x · (1 / c) = x / c`),
    and a count bounded below by one is not zero.
  The log-softmax of a row, and the fact that one more maximum with its starting value changes nothing, are in
  LibLogSoftmax.lean. None of the laws needs the entries to be finite.
-/
import Idealize.ShloMosaic.PureOps.Ideal
import Idealize.ShloMosaic.Lib.IdealHost
import Idealize.ShloMosaic.Lib.ValueIdx
import proofs.«162632_j91268055040046_2_alg».proof.Proof.LibLogSoftmax

noncomputable section

open scoped BigOperators

namespace Cert.Sage

open Idealize.ShloMosaic Idealize.ShloMosaic.ValueIdx

/-- The value of the f32 pattern of +0.0 (kept as the pattern: both programs print the same word). -/
abbrev zeroF : EReal := Ideal.ofBits .f32 0x00000000#32
/-- The value of the f32 pattern of 1.0. -/
abbrev oneF : EReal := Ideal.ofBits .f32 0x3F800000#32

/-- Hidden unit `k` of a node: the rectified sum of the neighbour-mean projection, the self projection and the bias. -/
def hidden (mean x : Fin 128 → EReal) (wl wr : Fin 128 → Fin 256 → EReal) (bl : Fin 256 → EReal) (k : Fin 256) : EReal :=
  max ((∑ d : Fin 128, mean d * wl d k) + (∑ d : Fin 128, x d * wr d k) + bl k) zeroF

/-- Logit `j` of a head with weights `w` and bias `b` on the hidden row `h`. -/
def logits {n : ℕ} (h : Fin 256 → EReal) (w : Fin 256 → Fin n → EReal) (b : Fin n → EReal) (j : Fin n) : EReal :=
  (∑ k : Fin 256, h k * w k j) + b j

/-- A head's output for one node: the log-softmax of its logits on the node's hidden row. -/
def headOut {n : ℕ} (mean x : Fin 128 → EReal) (wl wr : Fin 128 → Fin 256 → EReal) (bl : Fin 256 → EReal)
    (w : Fin 256 → Fin n → EReal) (b : Fin n → EReal) (j : Fin n) : EReal :=
  Cert.Lib.logSoftmax (logits (hidden mean x wl wr bl) w b) j

/-- THE LAYER'S OUTPUT for node `r` at class `q` of a head with weights `W` and bias `B`, as a function of the whole
    arrays: `A` the neighbour-feature sums, `Cnt` the neighbour counts (taken up to at least one before dividing), `X`
    the node features, `WL`, `WR`, `BL` the layer's weights. Only row `r` of `A`, `Cnt` and `X` is read. -/
def nodeOut {n : ℕ} (A X : (⟨2, ![100000, 128]⟩ : Shape).Idx → EReal) (Cnt : (⟨1, ![100000]⟩ : Shape).Idx → EReal)
    (WL WR : (⟨2, ![128, 256]⟩ : Shape).Idx → EReal) (BL : (⟨1, ![256]⟩ : Shape).Idx → EReal)
    (W : (⟨2, ![256, n]⟩ : Shape).Idx → EReal) (B : (⟨1, ![n]⟩ : Shape).Idx → EReal) (r : Fin 100000) (q : Fin n) : EReal :=
  headOut (fun d => Ideal.div (A (ix2 r d)) (max (Cnt (ix1 r)) oneF)) (fun d => X (ix2 r d))
    (fun d k => WL (ix2 d k)) (fun d k => WR (ix2 d k)) (fun k => BL (ix1 k)) (fun k j => W (ix2 k j)) (fun j => B (ix1 j)) q

/-- The same as an array over the nodes and classes. -/
def outArr {n : ℕ} (A X : (⟨2, ![100000, 128]⟩ : Shape).Idx → EReal) (Cnt : (⟨1, ![100000]⟩ : Shape).Idx → EReal)
    (WL WR : (⟨2, ![128, 256]⟩ : Shape).Idx → EReal) (BL : (⟨1, ![256]⟩ : Shape).Idx → EReal)
    (W : (⟨2, ![256, n]⟩ : Shape).Idx → EReal) (B : (⟨1, ![n]⟩ : Shape).Idx → EReal) :
    (⟨2, ![100000, n]⟩ : Shape).Idx → EReal :=
  fun i => nodeOut A X Cnt WL WR BL W B ⟨(i 0).val, (i 0).isLt⟩ ⟨(i 1).val, (i 1).isLt⟩

/-- At an index given by its coordinates the array is the node's output. -/
theorem outArr_ix2 {n : ℕ} (A X : (⟨2, ![100000, 128]⟩ : Shape).Idx → EReal) (Cnt : (⟨1, ![100000]⟩ : Shape).Idx → EReal)
    (WL WR : (⟨2, ![128, 256]⟩ : Shape).Idx → EReal) (BL : (⟨1, ![256]⟩ : Shape).Idx → EReal)
    (W : (⟨2, ![256, n]⟩ : Shape).Idx → EReal) (B : (⟨1, ![n]⟩ : Shape).Idx → EReal) (r : Fin 100000) (q : Fin n) :
    outArr A X Cnt WL WR BL W B (ix2 r q) = nodeOut A X Cnt WL WR BL W B r q := rfl

/-! ## The laws -/

/-- The bias may be added before the self projection. -/
theorem hidden_bias_first (mean x : Fin 128 → EReal) (wl wr : Fin 128 → Fin 256 → EReal) (bl : Fin 256 → EReal) (k : Fin 256) :
    max ((∑ d : Fin 128, mean d * wl d k) + bl k + (∑ d : Fin 128, x d * wr d k)) zeroF = hidden mean x wl wr bl k := by
  unfold hidden
  rw [add_right_comm]

/-- A count taken up to at least one is not zero. -/
theorem max_one_ne_zero (c : EReal) : max c oneF ≠ 0 := by
  have h1 : (1 : EReal) ≤ max c oneF := by
    rw [show oneF = 1 from Ideal.ofBits_one_f32]; exact le_max_right c 1
  intro e
  rw [e] at h1
  exact absurd h1 (by simp)

/-- The product with the reciprocal of such a count is the quotient by it. -/
theorem mul_recip_count (a c : EReal) : a * Ideal.div oneF (max c oneF) = Ideal.div a (max c oneF) := by
  rw [show (oneF : EReal) = 1 from Ideal.ofBits_one_f32]
  exact Ideal.mul_one_div (by rw [← show oneF = 1 from Ideal.ofBits_one_f32]; exact max_one_ne_zero c)

/-- Two heads agree at a class when their weights and biases agree there. -/
theorem logits_congr {n n' : ℕ} (h : Fin 256 → EReal) (w : Fin 256 → Fin n → EReal) (b : Fin n → EReal)
    (w' : Fin 256 → Fin n' → EReal) (b' : Fin n' → EReal) (j : Fin n) (j' : Fin n')
    (hw : ∀ k, w k j = w' k j') (hb : b j = b' j') : logits h w b j = logits h w' b' j' := by
  unfold logits
  rw [hb]
  exact congrArg (· + b' j') (Finset.sum_congr rfl fun k _ => by rw [hw k])

end Cert.Sage

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.KernelRow.lean ====
import proofs.«162632_j91268055040046_2_alg».proof.Proof.Gen.KernelIdeal.Value
import proofs.«162632_j91268055040046_2_alg».proof.Proof.Spec
import proofs.«162632_j91268055040046_2_alg».proof.Proof.LibMatmulPlain
import proofs.«162632_j91268055040046_2_alg».proof.Proof.LibColumn
import proofs.«162632_j91268055040046_2_alg».proof.Proof.LibLogSoftmax
import Idealize.ShloMosaic.Lib.ValueIdx
import Idealize.ShloMosaic.Lib.ValueLayout
import Idealize.ShloMosaic.Lib.Pipeline.Value

noncomputable section

open scoped BigOperators

namespace Cert.KernelIdeal.Row

open Cert.KernelIdeal Cert.KernelIdeal.Gen Idealize.ShloMosaic Idealize.ShloMosaic.ValueIdx Cert.Sage

/-! What one grid point's body leaves in its two output blocks, read at an entry: row `p` of the block of the first head
(7 classes) and of the second head (6 classes) is the head's log-softmax output for the node whose neighbour sum, reciprocal
count and own features are row `p` of the point's three row blocks, with the weights the resident blocks hold. The body
computes the 13 logits of both heads in one product against the concatenated weights and slices them apart; every
step reads row `p` only. -/

/-- Entry (p, k) of the 128-deep product into zero: the sum over the 128 features. -/
theorem mm128_apply (l : FVec Ideal S4000x128 .bf16) (r : FVec Ideal S128x256 .bf16) (p : Fin 4000) (k : Fin 256) :
    matmul dot_S4000x128_S128x256_S4000x256_1_0_0_1_n_n none l r (constant S4000x256 .f32 0x00000000#32) (ix2 p k)
      = ∑ d : Fin 128, l (ix2 p d) * r (ix2 d k) :=
  Cert.Lib.matmul_plain_zero_apply 4000 128 256 none l r p k

/-- Entry (p, j) of the 256-deep product into zero: the sum over the 256 hidden units. -/
theorem mm256_apply (l : FVec Ideal S4000x256 .bf16) (r : FVec Ideal S256x13 .bf16) (p : Fin 4000) (j : Fin 13) :
    matmul dot_S4000x256_S256x13_S4000x13_1_0_0_1_n_n none l r (constant S4000x13 .f32 0x00000000#32) (ix2 p j)
      = ∑ k : Fin 256, l (ix2 p k) * r (ix2 k j) :=
  Cert.Lib.matmul_plain_zero_apply 4000 256 13 none l r p j

/-- THE 13 LOGITS of block row `p`: the merged head's logits on the hidden row of the node in that row, whose neighbour
    mean is the neighbour sum times the reciprocal count. -/
theorem logits13_apply (P0 : Vec Ideal S4000x128 .f32) (P1 : Vec Ideal S4000x1 .f32) (P2 : Vec Ideal S4000x128 .bf16) (P3 : Vec Ideal S128x256 .bf16)
    (P4 : Vec Ideal S128x256 .bf16) (P5 : Vec Ideal S1x256 .f32) (P6 : Vec Ideal S256x13 .bf16) (P7 : Vec Ideal S1x13 .f32)
    (p : Fin 4000) (j : Fin 13) :
    k0_pay3 P0 P1 P2 P3 P4 P5 P6 P7 (ix2 p j)
      = logits (hidden (fun d => P0 (ix2 p d) * P1 (ix2 p (0 : Fin 1))) (fun d => P2 (ix2 p d)) (fun d k => P3 (ix2 d k))
          (fun d k => P4 (ix2 d k)) (fun k => P5 (ix2 (0 : Fin 1) k))) (fun k j => P6 (ix2 k j)) (fun j => P7 (ix2 (0 : Fin 1) j)) j := by
  unfold k0_pay3
  simp only [shapeCast_self]
  rw [addf_apply, mm256_apply, broadcastTo_1b_ab_apply]
  unfold logits
  refine congrArg (· + P7 (ix2 (0 : Fin 1) j)) (Finset.sum_congr rfl fun k _ => ?_)
  rw [truncf_apply, maximumf_apply, addf_apply, addf_apply, mm128_apply, mm128_apply, broadcastTo_1b_ab_apply, broadcast_apply]
  simp only [truncf_apply, mulf_apply, Cert.Lib.broadcastTo_a1_ab_apply]
  rfl

/-- The node's data in block row `p`, as the row functions take it. -/
abbrev hiddenRow (P0 : Vec Ideal S4000x128 .f32) (P1 : Vec Ideal S4000x1 .f32) (P2 : Vec Ideal S4000x128 .bf16) (P3 : Vec Ideal S128x256 .bf16)
    (P4 : Vec Ideal S128x256 .bf16) (P5 : Vec Ideal S1x256 .f32) (p : Fin 4000) : Fin 256 → EReal :=
  hidden (fun d => P0 (ix2 p d) * P1 (ix2 p (0 : Fin 1))) (fun d => P2 (ix2 p d)) (fun d k => P3 (ix2 d k))
    (fun d k => P4 (ix2 d k)) (fun k => P5 (ix2 (0 : Fin 1) k))

/-- ENTRY `(p, q)` OF THE FIRST HEAD'S BLOCK: the log-softmax, over the first 7 of the 13 logits, of the node in row `p`. -/
theorem head7_apply (P0 : Vec Ideal S4000x128 .f32) (P1 : Vec Ideal S4000x1 .f32) (P2 : Vec Ideal S4000x128 .bf16) (P3 : Vec Ideal S128x256 .bf16)
    (P4 : Vec Ideal S128x256 .bf16) (P5 : Vec Ideal S1x256 .f32) (P6 : Vec Ideal S256x13 .bf16) (P7 : Vec Ideal S1x13 .f32)
    (p : Fin 4000) (q : Fin 7) :
    Value.E8 P0 P1 P2 P3 P4 P5 P6 P7 (ix2 p q)
      = Cert.Lib.logSoftmax (logits (hiddenRow P0 P1 P2 P3 P4 P5 p)
          (fun k (j : Fin 7) => P6 (ix2 k (⟨j.val, by omega⟩ : Fin 13))) (fun (j : Fin 7) => P7 (ix2 (0 : Fin 1) (⟨j.val, by omega⟩ : Fin 13)))) q := by
  have h0 : Value.ix8_0 (ix2 p q) = ix2 p (⟨q.val, by omega⟩ : Fin 13) :=
    funext fun a => Fin.ext (by match a with | ⟨0, _⟩ => rfl | ⟨1, _⟩ => rfl)
  have h1 : Value.ix8_1 (ix2 p q) = ix1 p := funext fun a => Fin.ext (by match a with | ⟨0, _⟩ => rfl)
  have h2 : Value.ix8_2 (ix2 p q) = ix1 p := funext fun a => Fin.ext (by match a with | ⟨0, _⟩ => rfl)
  have hY : ∀ j : Fin 7, extractStridedSlice S4000x7 ![0, 0] (k0_pay3 P0 P1 P2 P3 P4 P5 P6 P7) slices_S4000x13_o0_0_S4000x7 (ix2 p j)
      = k0_pay3 P0 P1 P2 P3 P4 P5 P6 P7 (ix2 p (⟨j.val, by omega⟩ : Fin 13)) := fun j =>
    extractStridedSlice_apply ![0, 0] _ _ (ix2 p j) (ix2 p (⟨j.val, by omega⟩ : Fin 13)) (fun a => match a with
      | ⟨0, _⟩ => by show p.val = 0 + p.val; omega
      | ⟨1, _⟩ => by show j.val = 0 + j.val; omega)
  dsimp only [Value.E8]
  rw [h0, h1, h2, ← hY q]
  simp only [Ideal.subf_def, Ideal.log_def]
  have hZ : ∀ j : Fin 7, extractStridedSlice S4000x7 ![0, 0] (k0_pay3 P0 P1 P2 P3 P4 P5 P6 P7) slices_S4000x13_o0_0_S4000x7 (ix2 p j)
      = logits (hiddenRow P0 P1 P2 P3 P4 P5 p) (fun k (j : Fin 7) => P6 (ix2 k (⟨j.val, by omega⟩ : Fin 13)))
          (fun (j : Fin 7) => P7 (ix2 (0 : Fin 1) (⟨j.val, by omega⟩ : Fin 13))) j := fun j => by
    rw [hY j, logits13_apply]
    exact logits_congr _ _ _ _ _ _ _ (fun _ => rfl) rfl
  generalize extractStridedSlice S4000x7 ![0, 0] (k0_pay3 P0 P1 P2 P3 P4 P5 P6 P7) slices_S4000x13_o0_0_S4000x7 = Y at hZ ⊢
  refine (Cert.Lib.logSoftmax_rows_apply (a := 4000) (n := 7) Y
    reduces_S4000x7_S4000 shapeCasts_S4000_S4000x1 broadcasts_S4000x1_S4000x7 _ _ _ p q).trans ?_
  exact congrArg (fun z => Cert.Lib.logSoftmax z q) (funext fun j => hZ j)

/-- ENTRY `(p, q)` OF THE SECOND HEAD'S BLOCK: the log-softmax, over the last 6 of the 13 logits, of the node in row `p`. -/
theorem head6_apply (P0 : Vec Ideal S4000x128 .f32) (P1 : Vec Ideal S4000x1 .f32) (P2 : Vec Ideal S4000x128 .bf16) (P3 : Vec Ideal S128x256 .bf16)
    (P4 : Vec Ideal S128x256 .bf16) (P5 : Vec Ideal S1x256 .f32) (P6 : Vec Ideal S256x13 .bf16) (P7 : Vec Ideal S1x13 .f32)
    (p : Fin 4000) (q : Fin 6) :
    Value.E9 P0 P1 P2 P3 P4 P5 P6 P7 (ix2 p q)
      = Cert.Lib.logSoftmax (logits (hiddenRow P0 P1 P2 P3 P4 P5 p)
          (fun k (j : Fin 6) => P6 (ix2 k (⟨j.val + 7, by omega⟩ : Fin 13))) (fun (j : Fin 6) => P7 (ix2 (0 : Fin 1) (⟨j.val + 7, by omega⟩ : Fin 13)))) q := by
  have h0 : Value.ix9_0 (ix2 p q) = ix2 p (⟨q.val + 7, by omega⟩ : Fin 13) :=
    funext fun a => Fin.ext (by match a with | ⟨0, _⟩ => rfl | ⟨1, _⟩ => rfl)
  have h1 : Value.ix9_1 (ix2 p q) = ix1 p := funext fun a => Fin.ext (by match a with | ⟨0, _⟩ => rfl)
  have h2 : Value.ix9_2 (ix2 p q) = ix1 p := funext fun a => Fin.ext (by match a with | ⟨0, _⟩ => rfl)
  have hY : ∀ j : Fin 6, extractStridedSlice S4000x6 ![0, 7] (k0_pay3 P0 P1 P2 P3 P4 P5 P6 P7) slices_S4000x13_o0_7_S4000x6 (ix2 p j)
      = k0_pay3 P0 P1 P2 P3 P4 P5 P6 P7 (ix2 p (⟨j.val + 7, by omega⟩ : Fin 13)) := fun j =>
    extractStridedSlice_apply ![0, 7] _ _ (ix2 p j) (ix2 p (⟨j.val + 7, by omega⟩ : Fin 13)) (fun a => match a with
      | ⟨0, _⟩ => by show p.val = 0 + p.val; omega
      | ⟨1, _⟩ => by show j.val + 7 = 7 + j.val; omega)
  dsimp only [Value.E9]
  rw [h0, h1, h2, ← hY q]
  simp only [Ideal.subf_def, Ideal.log_def]
  have hZ : ∀ j : Fin 6, extractStridedSlice S4000x6 ![0, 7] (k0_pay3 P0 P1 P2 P3 P4 P5 P6 P7) slices_S4000x13_o0_7_S4000x6 (ix2 p j)
      = logits (hiddenRow P0 P1 P2 P3 P4 P5 p) (fun k (j : Fin 6) => P6 (ix2 k (⟨j.val + 7, by omega⟩ : Fin 13)))
          (fun (j : Fin 6) => P7 (ix2 (0 : Fin 1) (⟨j.val + 7, by omega⟩ : Fin 13))) j := fun j => by
    rw [hY j, logits13_apply]
    exact logits_congr _ _ _ _ _ _ _ (fun _ => rfl) rfl
  generalize extractStridedSlice S4000x6 ![0, 7] (k0_pay3 P0 P1 P2 P3 P4 P5 P6 P7) slices_S4000x13_o0_7_S4000x6 = Y at hZ ⊢
  refine (Cert.Lib.logSoftmax_rows_apply (a := 4000) (n := 6) Y
    reduces_S4000x6_S4000 shapeCasts_S4000_S4000x1 broadcasts_S4000x1_S4000x6 _ _ _ p q).trans ?_
  exact congrArg (fun z => Cert.Lib.logSoftmax z q) (funext fun j => hZ j)

/-- A BLOCK ROW IS A NODE (the head of 7 classes). When the point's three row blocks hold rows `base, …, base + 3999` of the
    neighbour sums, of the reciprocal counts and of the node features, and its resident blocks hold the layer's weights with the
    head's weights in columns `0 …` of the merged ones, then entry `(p, q)` of the head's block is the layer's output for node
    `base + p` at class `q`: the product with the reciprocal count is the quotient by the count, which is at least one. -/
theorem block7_eq (A X : (⟨2, ![100000, 128]⟩ : Shape).Idx → EReal) (Cnt : (⟨1, ![100000]⟩ : Shape).Idx → EReal)
    (WL WR : (⟨2, ![128, 256]⟩ : Shape).Idx → EReal) (BL : (⟨1, ![256]⟩ : Shape).Idx → EReal)
    (W : (⟨2, ![256, 7]⟩ : Shape).Idx → EReal) (B : (⟨1, ![7]⟩ : Shape).Idx → EReal)
    (P0 : Vec Ideal S4000x128 .f32) (P1 : Vec Ideal S4000x1 .f32) (P2 : Vec Ideal S4000x128 .bf16) (P3 : Vec Ideal S128x256 .bf16)
    (P4 : Vec Ideal S128x256 .bf16) (P5 : Vec Ideal S1x256 .f32) (P6 : Vec Ideal S256x13 .bf16) (P7 : Vec Ideal S1x13 .f32)
    (base : ℕ) (hb : base + 4000 ≤ 100000)
    (h0 : ∀ (p : Fin 4000) (d : Fin 128), P0 (ix2 p d) = A (ix2 (⟨base + p.val, by have := p.isLt; omega⟩ : Fin 100000) d))
    (h1 : ∀ p : Fin 4000, P1 (ix2 p (0 : Fin 1))
      = Ideal.div oneF (max (Cnt (ix1 (⟨base + p.val, by have := p.isLt; omega⟩ : Fin 100000))) oneF))
    (h2 : ∀ (p : Fin 4000) (d : Fin 128), P2 (ix2 p d) = X (ix2 (⟨base + p.val, by have := p.isLt; omega⟩ : Fin 100000) d))
    (h3 : ∀ (d : Fin 128) (k : Fin 256), P3 (ix2 d k) = WL (ix2 d k))
    (h4 : ∀ (d : Fin 128) (k : Fin 256), P4 (ix2 d k) = WR (ix2 d k))
    (h5 : ∀ k : Fin 256, P5 (ix2 (0 : Fin 1) k) = BL (ix1 k))
    (h6 : ∀ (k : Fin 256) (j : Fin 7), P6 (ix2 k (⟨j.val, by omega⟩ : Fin 13)) = W (ix2 k j))
    (h7 : ∀ j : Fin 7, P7 (ix2 (0 : Fin 1) (⟨j.val, by omega⟩ : Fin 13)) = B (ix1 j))
    (p : Fin 4000) (q : Fin 7) :
    Value.E8 P0 P1 P2 P3 P4 P5 P6 P7 (ix2 p q)
      = nodeOut A X Cnt WL WR BL W B (⟨base + p.val, by have := p.isLt; omega⟩ : Fin 100000) q := by
  rw [head7_apply]
  unfold nodeOut headOut
  simp only [hiddenRow, h0, h1, h2, h3, h4, h5, h6, h7, mul_recip_count]

/-- A BLOCK ROW IS A NODE (the head of 6 classes). When the point's three row blocks hold rows `base, …, base + 3999` of the
    neighbour sums, of the reciprocal counts and of the node features, and its resident blocks hold the layer's weights with the
    head's weights in columns `7 …` of the merged ones, then entry `(p, q)` of the head's block is the layer's output for node
    `base + p` at class `q`: the product with the reciprocal count is the quotient by the count, which is at least one. -/
theorem block6_eq (A X : (⟨2, ![100000, 128]⟩ : Shape).Idx → EReal) (Cnt : (⟨1, ![100000]⟩ : Shape).Idx → EReal)
    (WL WR : (⟨2, ![128, 256]⟩ : Shape).Idx → EReal) (BL : (⟨1, ![256]⟩ : Shape).Idx → EReal)
    (W : (⟨2, ![256, 6]⟩ : Shape).Idx → EReal) (B : (⟨1, ![6]⟩ : Shape).Idx → EReal)
    (P0 : Vec Ideal S4000x128 .f32) (P1 : Vec Ideal S4000x1 .f32) (P2 : Vec Ideal S4000x128 .bf16) (P3 : Vec Ideal S128x256 .bf16)
    (P4 : Vec Ideal S128x256 .bf16) (P5 : Vec Ideal S1x256 .f32) (P6 : Vec Ideal S256x13 .bf16) (P7 : Vec Ideal S1x13 .f32)
    (base : ℕ) (hb : base + 4000 ≤ 100000)
    (h0 : ∀ (p : Fin 4000) (d : Fin 128), P0 (ix2 p d) = A (ix2 (⟨base + p.val, by have := p.isLt; omega⟩ : Fin 100000) d))
    (h1 : ∀ p : Fin 4000, P1 (ix2 p (0 : Fin 1))
      = Ideal.div oneF (max (Cnt (ix1 (⟨base + p.val, by have := p.isLt; omega⟩ : Fin 100000))) oneF))
    (h2 : ∀ (p : Fin 4000) (d : Fin 128), P2 (ix2 p d) = X (ix2 (⟨base + p.val, by have := p.isLt; omega⟩ : Fin 100000) d))
    (h3 : ∀ (d : Fin 128) (k : Fin 256), P3 (ix2 d k) = WL (ix2 d k))
    (h4 : ∀ (d : Fin 128) (k : Fin 256), P4 (ix2 d k) = WR (ix2 d k))
    (h5 : ∀ k : Fin 256, P5 (ix2 (0 : Fin 1) k) = BL (ix1 k))
    (h6 : ∀ (k : Fin 256) (j : Fin 6), P6 (ix2 k (⟨j.val + 7, by omega⟩ : Fin 13)) = W (ix2 k j))
    (h7 : ∀ j : Fin 6, P7 (ix2 (0 : Fin 1) (⟨j.val + 7, by omega⟩ : Fin 13)) = B (ix1 j))
    (p : Fin 4000) (q : Fin 6) :
    Value.E9 P0 P1 P2 P3 P4 P5 P6 P7 (ix2 p q)
      = nodeOut A X Cnt WL WR BL W B (⟨base + p.val, by have := p.isLt; omega⟩ : Fin 100000) q := by
  rw [head6_apply]
  unfold nodeOut headOut
  simp only [hiddenRow, h0, h1, h2, h3, h4, h5, h6, h7, mul_recip_count]

end Cert.KernelIdeal.Row

end
-- ==== Proof.KernelHost.lean ====
/-
  What the region finds in the arrays of its eight input windows, read at an entry.

  Before the region the host program gathers and scatter-adds the neighbour features (array `main_v13`) and the neighbour
  counts (`main_v17`), takes the reciprocal of the count raised to at least one and views it as a column (`main_v22`),
  changes the format of the features and of the two weight matrices (the identity on extended reals), lays the two heads'
  weights side by side and their biases end to end, and views the two bias vectors as one-row matrices. Entry by entry:
  * the reciprocal column at `(r, 0)` is `1 / max (count r) 1`;
  * the re-formatted arrays are the arguments themselves;
  * the merged weights at `(k, j)` are the first head's at `(k, j)` for `j < 7` and the second head's at `(k, j − 7)` after;
    the merged bias row likewise;
  * the bias row of the hidden layer at `(0, k)` is the bias at `k`.
  The neighbour sums and counts are kept as the arrays the region finds; nothing here opens the gather or the scatters.
-/
import proofs.«162632_j91268055040046_2_alg».proof.Proof.Gen.KernelIdeal.Frame
import proofs.«162632_j91268055040046_2_alg».proof.Proof.Spec
import proofs.«162632_j91268055040046_2_alg».proof.Proof.LibColumn
import Idealize.ShloMosaic.Lib.StableHlo.Run
import Idealize.ShloMosaic.Lib.ValueIdx
import Idealize.ShloMosaic.Lib.ValueLayout
import Idealize.ShloMosaic.Lib.Pipeline.Value

set_option Elab.async false

noncomputable section

namespace Cert.KernelIdeal.HostSide

open Cert.KernelIdeal Cert.KernelIdeal.Gen Idealize.ShloMosaic Idealize.ShloMosaic.TcCoe Idealize.ShloMosaic.ValueIdx
open Idealize.ShloMosaic.StableHlo Idealize.SL.Sem Cert.Sage

variable (m : (ℓ : Loc nD τ sig) → Buf (Elt Ideal) ℓ)

set_option maxHeartbeats 4000000 in
/-- The reciprocal-count column at row `r`: one over the count raised to at least one. -/
theorem inv_apply (c : Dev nD) (r : Fin 100000) :
    (V m c main_v22 : S100000x1.Idx → EReal) (ix2 r (0 : Fin 1))
      = Ideal.div oneF (max ((V m c main_v17 : S100000.Idx → EReal) (ix1 r)) oneF) := by
  have e : (V m c main_v22 : S100000x1.Idx → EReal)
      = shapeCast S100000x1 (Host.divf (broadcastInDim S100000 ![] bcast_S_S100000 (constant (F := Ideal) S_ .f32 0x3F800000#32))
          (maximumf (V m c main_v17 : S100000.Idx → EReal)
            (broadcastInDim S100000 ![] bcast_S_S100000 (constant (F := Ideal) S_ .f32 0x3F800000#32)))) shapeCasts_S100000_S100000x1 := by
    dsimp only [Gen.V, Gen.hostOps0]; after_results_simp <;> rfl
  rw [e, Cert.Lib.shapeCast_a_a1_apply]
  generalize (V m c main_v17 : S100000.Idx → EReal) = C
  rfl

set_option maxHeartbeats 4000000 in
/-- The re-formatted node features are the node features. -/
theorem x_apply (c : Dev nD) (i : S100000x128.Idx) :
    (V m c main_v23 : S100000x128.Idx → EReal) i = (m ((c : Thread nD τ).loc main_arg0) : S100000x128.Idx → EReal) i := by
  have e : @Eq (S100000x128.Idx → EReal) (V m c main_v23)
      (truncf (F := Ideal) .bf16 (m ((c : Thread nD τ).loc main_arg0) : FVec Ideal S100000x128 .f32) bitsLt_bf16_f32) := by
    dsimp only [Gen.V, Gen.hostOps0]; after_results_simp <;> rfl
  rw [e]; rfl

set_option maxHeartbeats 4000000 in
/-- The re-formatted neighbour-projection weights are the weights. -/
theorem wl_apply (c : Dev nD) (i : S128x256.Idx) :
    (V m c main_v24 : S128x256.Idx → EReal) i = (m ((c : Thread nD τ).loc main_arg2) : S128x256.Idx → EReal) i := by
  have e : @Eq (S128x256.Idx → EReal) (V m c main_v24)
      (truncf (F := Ideal) .bf16 (m ((c : Thread nD τ).loc main_arg2) : FVec Ideal S128x256 .f32) bitsLt_bf16_f32) := by
    dsimp only [Gen.V, Gen.hostOps0]; after_results_simp <;> rfl
  rw [e]; rfl

set_option maxHeartbeats 4000000 in
/-- The re-formatted self-projection weights are the weights. -/
theorem wr_apply (c : Dev nD) (i : S128x256.Idx) :
    (V m c main_v25 : S128x256.Idx → EReal) i = (m ((c : Thread nD τ).loc main_arg4) : S128x256.Idx → EReal) i := by
  have e : @Eq (S128x256.Idx → EReal) (V m c main_v25)
      (truncf (F := Ideal) .bf16 (m ((c : Thread nD τ).loc main_arg4) : FVec Ideal S128x256 .f32) bitsLt_bf16_f32) := by
    dsimp only [Gen.V, Gen.hostOps0]; after_results_simp <;> rfl
  rw [e]; rfl

set_option maxHeartbeats 4000000 in
/-- The hidden layer's bias viewed as one row. -/
theorem bl_apply (c : Dev nD) (k : Fin 256) :
    (V m c main_v30 : S1x256.Idx → EReal) (ix2 (0 : Fin 1) k) = (m ((c : Thread nD τ).loc main_arg3) : S256.Idx → EReal) (ix1 k) := by
  have e : (V m c main_v30 : S1x256.Idx → EReal)
      = shapeCast S1x256 (m ((c : Thread nD τ).loc main_arg3) : S256.Idx → EReal) shapeCasts_S256_S1x256 := by
    dsimp only [Gen.V, Gen.hostOps0]; after_results_simp <;> rfl
  rw [e, shapeCast_a_1a_apply]

set_option maxHeartbeats 4000000 in
/-- The merged head weights, as the two heads' side by side. -/
theorem wps_eq (c : Dev nD) :
    @Eq (S256x13.Idx → EReal) (V m c main_v27)
      (truncf (F := Ideal) .bf16 (concatenate S256x13 1 [⟨S256x7, (m ((c : Thread nD τ).loc main_arg5) : S256x7.Idx → EReal)⟩,
          ⟨S256x6, (m ((c : Thread nD τ).loc main_arg7) : S256x6.Idx → EReal)⟩] concatenates_S256x7_S256x6_S256x13_d1 : FVec Ideal S256x13 .f32) bitsLt_bf16_f32) := by
  dsimp only [Gen.V, Gen.hostOps0]; after_results_simp <;> rfl

set_option maxHeartbeats 4000000 in
/-- Columns 0–6 of the merged weights are the first head's. -/
theorem wps_left (c : Dev nD) (k : Fin 256) (j : Fin 7) :
    (V m c main_v27 : S256x13.Idx → EReal) (ix2 k (⟨j.val, by omega⟩ : Fin 13))
      = (m ((c : Thread nD τ).loc main_arg5) : S256x7.Idx → EReal) (ix2 k j) := by
  rw [wps_eq]
  show concatenate S256x13 1 [⟨S256x7, _⟩, ⟨S256x6, _⟩] concatenates_S256x7_S256x6_S256x13_d1 (ix2 k (⟨j.val, by omega⟩ : Fin 13)) = _
  exact concatenate_pair_apply_left (t := S256x13) (s₁ := S256x7) (s₂ := S256x6) (1 : Fin 2) _ _ concatenates_S256x7_S256x6_S256x13_d1
    (ix2 k (⟨j.val, by omega⟩ : Fin 13)) rfl (ix2 k j) (fun b => match b with | ⟨0, _⟩ => rfl | ⟨1, _⟩ => rfl)

/-- Columns 7–12 of the merged weights are the second head's. -/
theorem wps_right (c : Dev nD) (k : Fin 256) (j : Fin 6) :
    (V m c main_v27 : S256x13.Idx → EReal) (ix2 k (⟨j.val + 7, by omega⟩ : Fin 13))
      = (m ((c : Thread nD τ).loc main_arg7) : S256x6.Idx → EReal) (ix2 k j) := by
  rw [wps_eq]
  show concatenate S256x13 1 [⟨S256x7, _⟩, ⟨S256x6, _⟩] concatenates_S256x7_S256x6_S256x13_d1 (ix2 k (⟨j.val + 7, by omega⟩ : Fin 13)) = _
  exact concatenate_pair_apply_right (t := S256x13) (s₁ := S256x7) (s₂ := S256x6) (1 : Fin 2) _ _ concatenates_S256x7_S256x6_S256x13_d1
    (ix2 k (⟨j.val + 7, by omega⟩ : Fin 13)) rfl rfl (ix2 k j)
    (fun b hb => match b, hb with | ⟨0, _⟩, _ => rfl | ⟨1, _⟩, hb => absurd rfl hb) rfl

/-- The merged bias row, as the two heads' biases end to end viewed as one row. -/
theorem bps_eq (c : Dev nD) :
    @Eq (S1x13.Idx → EReal) (V m c main_v29)
      (shapeCast S1x13 (concatenate S13 0 [⟨S7, (m ((c : Thread nD τ).loc main_arg6) : S7.Idx → EReal)⟩,
          ⟨S6, (m ((c : Thread nD τ).loc main_arg8) : S6.Idx → EReal)⟩] concatenates_S7_S6_S13_d0) shapeCasts_S13_S1x13) := by
  dsimp only [Gen.V, Gen.hostOps0]; after_results_simp <;> rfl

/-- Entries 0–6 of the merged bias row are the first head's bias. -/
theorem bps_left (c : Dev nD) (j : Fin 7) :
    (V m c main_v29 : S1x13.Idx → EReal) (ix2 (0 : Fin 1) (⟨j.val, by omega⟩ : Fin 13))
      = (m ((c : Thread nD τ).loc main_arg6) : S7.Idx → EReal) (ix1 j) := by
  rw [bps_eq, shapeCast_a_1a_apply]
  exact concatenate_pair_apply_left (t := S13) (s₁ := S7) (s₂ := S6) (0 : Fin 1) _ _ concatenates_S7_S6_S13_d0
    (ix1 (⟨j.val, by omega⟩ : Fin 13)) rfl (ix1 j) (fun b => match b with | ⟨0, _⟩ => rfl)

/-- Entries 7–12 of the merged bias row are the second head's bias. -/
theorem bps_right (c : Dev nD) (j : Fin 6) :
    (V m c main_v29 : S1x13.Idx → EReal) (ix2 (0 : Fin 1) (⟨j.val + 7, by omega⟩ : Fin 13))
      = (m ((c : Thread nD τ).loc main_arg8) : S6.Idx → EReal) (ix1 j) := by
  rw [bps_eq, shapeCast_a_1a_apply]
  exact concatenate_pair_apply_right (t := S13) (s₁ := S7) (s₂ := S6) (0 : Fin 1) _ _ concatenates_S7_S6_S13_d0
    (ix1 (⟨j.val + 7, by omega⟩ : Fin 13)) rfl rfl (ix1 j)
    (fun b hb => match b, hb with | ⟨0, _⟩, hb => absurd rfl hb) rfl

end Cert.KernelIdeal.HostSide

end
-- ==== Proof.KernelArray.lean ====
/-
  From blocks to arrays: after the region each head's array holds the layer's output for every node.

  The grid has 25 points; point `t` is handed rows `4000 t … 4000 t + 3999` of the neighbour sums, of the reciprocal counts
  and of the node features, the whole weight arrays, and writes rows `4000 t … 4000 t + 3999` of each head's array. A block's
  element sits at block index × block size + its coordinate, so entry `(p, q)` of what point `t` writes is the layer's output
  for node `4000 t + p` (KernelRow.lean, with the host side of KernelHost.lean), and the 25 blocks cover the 100000 rows.
-/
import proofs.«162632_j91268055040046_2_alg».proof.Proof.Gen.KernelIdeal.Value
import proofs.«162632_j91268055040046_2_alg».proof.Proof.KernelRow
import proofs.«162632_j91268055040046_2_alg».proof.Proof.KernelHost
import Idealize.ShloMosaic.Lib.Pipeline.Value
import Idealize.ShloMosaic.Lib.ValueIdx

set_option Elab.async false
set_option maxHeartbeats 400000

noncomputable section

namespace Cert.KernelIdeal.Arrays

open Cert.KernelIdeal Cert.KernelIdeal.Gen Idealize.ShloMosaic Idealize.ShloMosaic.TcCoe Idealize.ShloMosaic.ValueIdx Idealize.SL.Sem
open Idealize.ShloMosaic.Pipeline (Dat)
open Cert.Sage

variable (m : (ℓ : Loc nD τ sig) → Buf (Elt Ideal) ℓ) (ρ : Dev nD → PrngReg)

theorem hz : (![0, 0] : Fin 2 → Nat) = fun _ => 0 := funext fun a => by fin_cases a <;> rfl

/-- A grid point's number is below 25. -/
theorem t_lt (t : Fin cfg0.N) : t.val < 25 := by
  have h := t.isLt
  have hN : cfg0.N = 25 := N_0
  omega

/-- The row-blocked windows (three inputs, two outputs) are at block row `t` at point `t` (decided over the grid). -/
theorem idx_rows : ∀ t : Fin cfg0.N, win0_0.index t 0 = t.val ∧ win0_1.index t 0 = t.val ∧ win0_2.index t 0 = t.val
    ∧ win0_8.index t 0 = t.val ∧ win0_9.index t 0 = t.val :=
  (by decide +kernel : ∀ t : Fin grid0.N, _)

/-- … and at block column 0. -/
theorem idx_cols : ∀ t : Fin cfg0.N, win0_0.index t 1 = 0 ∧ win0_1.index t 1 = 0 ∧ win0_2.index t 1 = 0
    ∧ win0_8.index t 1 = 0 ∧ win0_9.index t 1 = 0 :=
  (by decide +kernel : ∀ t : Fin grid0.N, _)

/-- The resident windows are at block (0, 0) at every point. -/
theorem idx_whole : ∀ t : Fin cfg0.N, (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) :=
  (by decide +kernel : ∀ t : Fin grid0.N, _)

/-! ## Each input window's block, read off its array -/

/-- Row `p` of the neighbour-sum block at point `t` is row `4000 t + p` of the neighbour sums. -/
theorem iblk0_apply (c : Dev nD) (t : Fin cfg0.N) (ht : t.val < 25) (p : Fin 4000) (d : Fin 128) :
    (iblk m c 0 t : S4000x128.Idx → EReal) (ix2 p d)
      = (V m c main_v13 : S100000x128.Idx → EReal) (ix2 (⟨4000 * t.val + p.val, by have := p.isLt; omega⟩ : Fin 100000) d) := by
  have e0 : win0_0.index t 0 = t.val := (idx_rows t).1
  have e1 : win0_0.index t 1 = 0 := (idx_cols t).1
  unfold iblk
  rw [View.read_apply]
  show (V m c main_v13 : S100000x128.Idx → EReal) _ = _
  refine congrArg (V m c main_v13 : S100000x128.Idx → EReal) (funext fun a => Fin.ext ?_)
  match a with
  | ⟨0, _⟩ => show win0_0.index t 0 * 4000 + 1 * p.val = 4000 * t.val + p.val; rw [e0]; omega
  | ⟨1, _⟩ => show win0_0.index t 1 * 128 + 1 * d.val = d.val; rw [e1]; omega

/-- Row `p` of the reciprocal-count block at point `t` is row `4000 t + p` of the reciprocal counts. -/
theorem iblk1_apply (c : Dev nD) (t : Fin cfg0.N) (ht : t.val < 25) (p : Fin 4000) (d : Fin 1) :
    (iblk m c 1 t : S4000x1.Idx → EReal) (ix2 p d)
      = (V m c main_v22 : S100000x1.Idx → EReal) (ix2 (⟨4000 * t.val + p.val, by have := p.isLt; omega⟩ : Fin 100000) d) := by
  have e0 : win0_1.index t 0 = t.val := (idx_rows t).2.1
  have e1 : win0_1.index t 1 = 0 := (idx_cols t).2.1
  unfold iblk
  rw [View.read_apply]
  show (V m c main_v22 : S100000x1.Idx → EReal) _ = _
  refine congrArg (V m c main_v22 : S100000x1.Idx → EReal) (funext fun a => Fin.ext ?_)
  match a with
  | ⟨0, _⟩ => show win0_1.index t 0 * 4000 + 1 * p.val = 4000 * t.val + p.val; rw [e0]; omega
  | ⟨1, _⟩ => show win0_1.index t 1 * 1 + 1 * d.val = d.val; rw [e1]; omega

/-- Row `p` of the feature block at point `t` is row `4000 t + p` of the node features. -/
theorem iblk2_apply (c : Dev nD) (t : Fin cfg0.N) (ht : t.val < 25) (p : Fin 4000) (d : Fin 128) :
    (iblk m c 2 t : S4000x128.Idx → EReal) (ix2 p d)
      = (V m c main_v23 : S100000x128.Idx → EReal) (ix2 (⟨4000 * t.val + p.val, by have := p.isLt; omega⟩ : Fin 100000) d) := by
  have e0 : win0_2.index t 0 = t.val := (idx_rows t).2.2.1
  have e1 : win0_2.index t 1 = 0 := (idx_cols t).2.2.1
  unfold iblk
  rw [View.read_apply]
  show (V m c main_v23 : S100000x128.Idx → EReal) _ = _
  refine congrArg (V m c main_v23 : S100000x128.Idx → EReal) (funext fun a => Fin.ext ?_)
  match a with
  | ⟨0, _⟩ => show win0_2.index t 0 * 4000 + 1 * p.val = 4000 * t.val + p.val; rw [e0]; omega
  | ⟨1, _⟩ => show win0_2.index t 1 * 128 + 1 * d.val = d.val; rw [e1]; omega

/-- The neighbour-projection weights are resident: the block is the whole array. -/
theorem iblk3_apply (c : Dev nD) (t : Fin cfg0.N) (i : Fin 128) (j : Fin 256) :
    (iblk m c 3 t : S128x256.Idx → EReal) (ix2 i j) = (V m c main_v24 : S128x256.Idx → EReal) (ix2 i j) := by
  have e0 : win0_3.index t 0 = 0 := (idx_whole t).1.1
  have e1 : win0_3.index t 1 = 0 := (idx_whole t).1.2
  unfold iblk
  rw [View.read_apply]
  show (V m c main_v24 : S128x256.Idx → EReal) _ = _
  refine congrArg (V m c main_v24 : S128x256.Idx → EReal) (funext fun a => Fin.ext ?_)
  match a with
  | ⟨0, _⟩ => show win0_3.index t 0 * 128 + 1 * i.val = i.val; rw [e0]; omega
  | ⟨1, _⟩ => show win0_3.index t 1 * 256 + 1 * j.val = j.val; rw [e1]; omega

/-- The hidden bias row is resident. -/
theorem iblk4_apply (c : Dev nD) (t : Fin cfg0.N) (i : Fin 1) (j : Fin 256) :
    (iblk m c 4 t : S1x256.Idx → EReal) (ix2 i j) = (V m c main_v30 : S1x256.Idx → EReal) (ix2 i j) := by
  have e0 : win0_4.index t 0 = 0 := (idx_whole t).2.1.1
  have e1 : win0_4.index t 1 = 0 := (idx_whole t).2.1.2
  unfold iblk
  rw [View.read_apply]
  show (V m c main_v30 : S1x256.Idx → EReal) _ = _
  refine congrArg (V m c main_v30 : S1x256.Idx → EReal) (funext fun a => Fin.ext ?_)
  match a with
  | ⟨0, _⟩ => show win0_4.index t 0 * 1 + 1 * i.val = i.val; rw [e0]; omega
  | ⟨1, _⟩ => show win0_4.index t 1 * 256 + 1 * j.val = j.val; rw [e1]; omega

/-- The self-projection weights are resident. -/
theorem iblk5_apply (c : Dev nD) (t : Fin cfg0.N) (i : Fin 128) (j : Fin 256) :
    (iblk m c 5 t : S128x256.Idx → EReal) (ix2 i j) = (V m c main_v25 : S128x256.Idx → EReal) (ix2 i j) := by
  have e0 : win0_5.index t 0 = 0 := (idx_whole t).2.2.1.1
  have e1 : win0_5.index t 1 = 0 := (idx_whole t).2.2.1.2
  unfold iblk
  rw [View.read_apply]
  show (V m c main_v25 : S128x256.Idx → EReal) _ = _
  refine congrArg (V m c main_v25 : S128x256.Idx → EReal) (funext fun a => Fin.ext ?_)
  match a with
  | ⟨0, _⟩ => show win0_5.index t 0 * 128 + 1 * i.val = i.val; rw [e0]; omega
  | ⟨1, _⟩ => show win0_5.index t 1 * 256 + 1 * j.val = j.val; rw [e1]; omega

/-- The merged head weights are resident. -/
theorem iblk6_apply (c : Dev nD) (t : Fin cfg0.N) (i : Fin 256) (j : Fin 13) :
    (iblk m c 6 t : S256x13.Idx → EReal) (ix2 i j) = (V m c main_v27 : S256x13.Idx → EReal) (ix2 i j) := by
  have e0 : win0_6.index t 0 = 0 := (idx_whole t).2.2.2.1.1
  have e1 : win0_6.index t 1 = 0 := (idx_whole t).2.2.2.1.2
  unfold iblk
  rw [View.read_apply]
  show (V m c main_v27 : S256x13.Idx → EReal) _ = _
  refine congrArg (V m c main_v27 : S256x13.Idx → EReal) (funext fun a => Fin.ext ?_)
  match a with
  | ⟨0, _⟩ => show win0_6.index t 0 * 256 + 1 * i.val = i.val; rw [e0]; omega
  | ⟨1, _⟩ => show win0_6.index t 1 * 13 + 1 * j.val = j.val; rw [e1]; omega

/-- The merged head bias row is resident. -/
theorem iblk7_apply (c : Dev nD) (t : Fin cfg0.N) (i : Fin 1) (j : Fin 13) :
    (iblk m c 7 t : S1x13.Idx → EReal) (ix2 i j) = (V m c main_v29 : S1x13.Idx → EReal) (ix2 i j) := by
  have e0 : win0_7.index t 0 = 0 := (idx_whole t).2.2.2.2.1
  have e1 : win0_7.index t 1 = 0 := (idx_whole t).2.2.2.2.2
  unfold iblk
  rw [View.read_apply]
  show (V m c main_v29 : S1x13.Idx → EReal) _ = _
  refine congrArg (V m c main_v29 : S1x13.Idx → EReal) (funext fun a => Fin.ext ?_)
  match a with
  | ⟨0, _⟩ => show win0_7.index t 0 * 1 + 1 * i.val = i.val; rw [e0]; omega
  | ⟨1, _⟩ => show win0_7.index t 1 * 13 + 1 * j.val = j.val; rw [e1]; omega

/-! ## The layer's output arrays -/

/-- The first head's output for every node, from the arrays the region finds and the arguments. -/
abbrev out7 (c : Dev nD) : S100000x7.Idx → EReal :=
  outArr (V m c main_v13) (m ((c : Thread nD τ).loc main_arg0)) (V m c main_v17) (m ((c : Thread nD τ).loc main_arg2))
    (m ((c : Thread nD τ).loc main_arg4)) (m ((c : Thread nD τ).loc main_arg3)) (m ((c : Thread nD τ).loc main_arg5))
    (m ((c : Thread nD τ).loc main_arg6))

/-- The second head's. -/
abbrev out6 (c : Dev nD) : S100000x6.Idx → EReal :=
  outArr (V m c main_v13) (m ((c : Thread nD τ).loc main_arg0)) (V m c main_v17) (m ((c : Thread nD τ).loc main_arg2))
    (m ((c : Thread nD τ).loc main_arg4)) (m ((c : Thread nD τ).loc main_arg3)) (m ((c : Thread nD τ).loc main_arg7))
    (m ((c : Thread nD τ).loc main_arg8))

/-! ## The output windows -/

/-- Entry `(p, q)` of output block `t` of the head of 7 classes sits at row `4000 t + p`, column `q` of its array. -/
theorem emb8_apply (t : Fin cfg0.N) (ht : t.val < 25) (p : Fin 4000) (q : Fin 7) :
    ((cfg0.win 8).blk t).view.emb (ix2 p q : S4000x7.Idx)
      = (ix2 (⟨4000 * t.val + p.val, by have := p.isLt; omega⟩ : Fin 100000) q : S100000x7.Idx) := by
  have e0 : win0_8.index t 0 = t.val := (idx_rows t).2.2.2.1
  have e1 : win0_8.index t 1 = 0 := (idx_cols t).2.2.2.1
  funext a; apply Fin.ext
  match a with
  | ⟨0, _⟩ => show win0_8.index t 0 * 4000 + 1 * p.val = 4000 * t.val + p.val; rw [e0]; omega
  | ⟨1, _⟩ => show win0_8.index t 1 * 7 + 1 * q.val = q.val; rw [e1]; omega

/-- An index of the array is in point `t`'s block iff each coordinate is in the block's range on its axis. -/
theorem mem_blk8 (t : Fin cfg0.N) (i : S100000x7.Idx) :
    i ∈ ((cfg0.win 8).blk t).view.set ↔ ∀ a : Fin 2, win0_8.index t a * S4000x7.size a ≤ (i a).val
      ∧ (i a).val < win0_8.index t a * S4000x7.size a + S4000x7.size a := by
  show i ∈ ((View.whole main_v31_0).slice (win0_8.rect t)).set ↔ _
  rw [View.set_slice_whole, Rect.mem_set_unit]
  exact Iff.rfl

/-- Every node's row is in the block of the point that covers it: node `r` in block `r / 4000`. -/
theorem cover8 (i : S100000x7.Idx) :
    ∃ t : Fin cfg0.N, (cfg0.win 8).flush t = true ∧ i ∈ ((cfg0.win 8).blk t).view.set := by
  have hi0 : (i 0).val < 100000 := (i 0).isLt
  have hi1 : (i 1).val < 7 := (i 1).isLt
  have hN : cfg0.N = 25 := N_0
  let t : Fin cfg0.N := ⟨(i 0).val / 4000, by rw [hN]; omega⟩
  have e0 : win0_8.index t 0 = t.val := (idx_rows t).2.2.2.1
  have e1 : win0_8.index t 1 = 0 := (idx_cols t).2.2.2.1
  have ht : t.val = (i 0).val / 4000 := rfl
  refine ⟨t, flush0_8 t, ?_⟩
  rw [mem_blk8]
  intro a
  match a with
  | ⟨0, _⟩ => show win0_8.index t 0 * 4000 ≤ (i 0).val ∧ (i 0).val < win0_8.index t 0 * 4000 + 4000; rw [e0, ht]; omega
  | ⟨1, _⟩ => show win0_8.index t 1 * 7 ≤ (i 1).val ∧ (i 1).val < win0_8.index t 1 * 7 + 7; rw [e1]; omega

/-- Entry `(p, q)` of output block `t` of the head of 6 classes sits at row `4000 t + p`, column `q` of its array. -/
theorem emb9_apply (t : Fin cfg0.N) (ht : t.val < 25) (p : Fin 4000) (q : Fin 6) :
    ((cfg0.win 9).blk t).view.emb (ix2 p q : S4000x6.Idx)
      = (ix2 (⟨4000 * t.val + p.val, by have := p.isLt; omega⟩ : Fin 100000) q : S100000x6.Idx) := by
  have e0 : win0_9.index t 0 = t.val := (idx_rows t).2.2.2.2
  have e1 : win0_9.index t 1 = 0 := (idx_cols t).2.2.2.2
  funext a; apply Fin.ext
  match a with
  | ⟨0, _⟩ => show win0_9.index t 0 * 4000 + 1 * p.val = 4000 * t.val + p.val; rw [e0]; omega
  | ⟨1, _⟩ => show win0_9.index t 1 * 6 + 1 * q.val = q.val; rw [e1]; omega

/-- An index of the array is in point `t`'s block iff each coordinate is in the block's range on its axis. -/
theorem mem_blk9 (t : Fin cfg0.N) (i : S100000x6.Idx) :
    i ∈ ((cfg0.win 9).blk t).view.set ↔ ∀ a : Fin 2, win0_9.index t a * S4000x6.size a ≤ (i a).val
      ∧ (i a).val < win0_9.index t a * S4000x6.size a + S4000x6.size a := by
  show i ∈ ((View.whole main_v31_1).slice (win0_9.rect t)).set ↔ _
  rw [View.set_slice_whole, Rect.mem_set_unit]
  exact Iff.rfl

/-- Every node's row is in the block of the point that covers it: node `r` in block `r / 4000`. -/
theorem cover9 (i : S100000x6.Idx) :
    ∃ t : Fin cfg0.N, (cfg0.win 9).flush t = true ∧ i ∈ ((cfg0.win 9).blk t).view.set := by
  have hi0 : (i 0).val < 100000 := (i 0).isLt
  have hi1 : (i 1).val < 6 := (i 1).isLt
  have hN : cfg0.N = 25 := N_0
  let t : Fin cfg0.N := ⟨(i 0).val / 4000, by rw [hN]; omega⟩
  have e0 : win0_9.index t 0 = t.val := (idx_rows t).2.2.2.2
  have e1 : win0_9.index t 1 = 0 := (idx_cols t).2.2.2.2
  have ht : t.val = (i 0).val / 4000 := rfl
  refine ⟨t, flush0_9 t, ?_⟩
  rw [mem_blk9]
  intro a
  match a with
  | ⟨0, _⟩ => show win0_9.index t 0 * 4000 ≤ (i 0).val ∧ (i 0).val < win0_9.index t 0 * 4000 + 4000; rw [e0, ht]; omega
  | ⟨1, _⟩ => show win0_9.index t 1 * 6 ≤ (i 1).val ∧ (i 1).val < win0_9.index t 1 * 6 + 6; rw [e1]; omega

/-- WHAT POINT `t` WRITES BACK to the head of 7 classes is block `t` of the layer's output array: row `p` of the block is node
    `4000 t + p`, whose neighbour sum, reciprocal count and features the point's row blocks hold. -/
theorem flushed8_eq (c : Dev nD) (t : Fin cfg0.N) :
    (dats m 0 c).flushed 8 t = ((cfg0.win 8).blk t).view.read (Elt Ideal) (out7 m c) := by
  have ht : t.val < 25 := t_lt t
  rw [Value.flushed8]
  unfold out0_8
  simp only [View.ld_unit_zero (S := S4000x128) hz, View.ld_unit_zero (S := S4000x1) hz, View.ld_unit_zero (S := S128x256) hz,
    View.ld_unit_zero (S := S1x256) hz, View.ld_unit_zero (S := S256x13) hz, View.ld_unit_zero (S := S1x13) hz]
  refine funext fun y => ?_
  show View.canon (Val := Elt Ideal) (e := .f32) [⟨r0_6, k0_pay1 (k0_pay5 (iblk m c 0 t) (iblk m c 1 t) (iblk m c 2 t) (iblk m c 3 t) (iblk m c 5 t) (iblk m c 4 t) (iblk m c 6 t) (iblk m c 7 t)) (k0_pay6 (iblk m c 0 t) (iblk m c 1 t) (iblk m c 2 t) (iblk m c 3 t) (iblk m c 5 t) (iblk m c 4 t) (iblk m c 6 t) (iblk m c 7 t))⟩] y = out7 m c (((cfg0.win 8).blk t).view.emb y)
  refine (Value.canon8_eq (iblk m c 0 t) (iblk m c 1 t) (iblk m c 2 t) (iblk m c 3 t) (iblk m c 5 t) (iblk m c 4 t) (iblk m c 6 t)
    (iblk m c 7 t) y).trans ?_
  obtain ⟨p, q, rfl⟩ : ∃ (p : Fin 4000) (q : Fin 7), y = ix2 p q := ⟨y 0, y 1, eq_ix2 y⟩
  rw [emb8_apply t ht p q]
  refine (Row.block7_eq (V m c main_v13) (m ((c : Thread nD τ).loc main_arg0)) (V m c main_v17) (m ((c : Thread nD τ).loc main_arg2))
    (m ((c : Thread nD τ).loc main_arg4)) (m ((c : Thread nD τ).loc main_arg3)) (m ((c : Thread nD τ).loc main_arg5))
    (m ((c : Thread nD τ).loc main_arg6)) (iblk m c 0 t) (iblk m c 1 t) (iblk m c 2 t) (iblk m c 3 t) (iblk m c 5 t) (iblk m c 4 t)
    (iblk m c 6 t) (iblk m c 7 t) (4000 * t.val) (by omega)
    (fun p d => iblk0_apply m c t ht p d)
    (fun p => (iblk1_apply m c t ht p 0).trans (HostSide.inv_apply m c _))
    (fun p d => (iblk2_apply m c t ht p d).trans (HostSide.x_apply m c _))
    (fun d k => (iblk3_apply m c t d k).trans (HostSide.wl_apply m c _))
    (fun d k => (iblk5_apply m c t d k).trans (HostSide.wr_apply m c _))
    (fun k => (iblk4_apply m c t 0 k).trans (HostSide.bl_apply m c k))
    (fun k j => (iblk6_apply m c t k _).trans (HostSide.wps_left m c k j))
    (fun j => (iblk7_apply m c t 0 _).trans (HostSide.bps_left m c j)) p q).trans ?_
  exact (outArr_ix2 _ _ _ _ _ _ _ _ _ _).symm

/-- So the head's array ends holding the layer's output for every node: the 25 blocks of 4000 rows cover the 100000 nodes. -/
theorem final8 (c : Dev nD) : (dats m 0 c).arrAt 8 cfg0.N = out7 m c :=
  (dats m 0 c).arrAt_eq_of_cover 8 (out7 m c) (fun t _ => flushed8_eq m c t) cover8

/-- WHAT POINT `t` WRITES BACK to the head of 6 classes is block `t` of the layer's output array: row `p` of the block is node
    `4000 t + p`, whose neighbour sum, reciprocal count and features the point's row blocks hold. -/
theorem flushed9_eq (c : Dev nD) (t : Fin cfg0.N) :
    (dats m 0 c).flushed 9 t = ((cfg0.win 9).blk t).view.read (Elt Ideal) (out6 m c) := by
  have ht : t.val < 25 := t_lt t
  rw [Value.flushed9]
  unfold out0_9
  simp only [View.ld_unit_zero (S := S4000x128) hz, View.ld_unit_zero (S := S4000x1) hz, View.ld_unit_zero (S := S128x256) hz,
    View.ld_unit_zero (S := S1x256) hz, View.ld_unit_zero (S := S256x13) hz, View.ld_unit_zero (S := S1x13) hz]
  refine funext fun y => ?_
  show View.canon (Val := Elt Ideal) (e := .f32) [⟨r0_7, k0_pay2 (k0_pay4 (iblk m c 0 t) (iblk m c 1 t) (iblk m c 2 t) (iblk m c 3 t) (iblk m c 5 t) (iblk m c 4 t) (iblk m c 6 t) (iblk m c 7 t))⟩] y = out6 m c (((cfg0.win 9).blk t).view.emb y)
  refine (Value.canon9_eq (iblk m c 0 t) (iblk m c 1 t) (iblk m c 2 t) (iblk m c 3 t) (iblk m c 5 t) (iblk m c 4 t) (iblk m c 6 t)
    (iblk m c 7 t) y).trans ?_
  obtain ⟨p, q, rfl⟩ : ∃ (p : Fin 4000) (q : Fin 6), y = ix2 p q := ⟨y 0, y 1, eq_ix2 y⟩
  rw [emb9_apply t ht p q]
  refine (Row.block6_eq (V m c main_v13) (m ((c : Thread nD τ).loc main_arg0)) (V m c main_v17) (m ((c : Thread nD τ).loc main_arg2))
    (m ((c : Thread nD τ).loc main_arg4)) (m ((c : Thread nD τ).loc main_arg3)) (m ((c : Thread nD τ).loc main_arg7))
    (m ((c : Thread nD τ).loc main_arg8)) (iblk m c 0 t) (iblk m c 1 t) (iblk m c 2 t) (iblk m c 3 t) (iblk m c 5 t) (iblk m c 4 t)
    (iblk m c 6 t) (iblk m c 7 t) (4000 * t.val) (by omega)
    (fun p d => iblk0_apply m c t ht p d)
    (fun p => (iblk1_apply m c t ht p 0).trans (HostSide.inv_apply m c _))
    (fun p d => (iblk2_apply m c t ht p d).trans (HostSide.x_apply m c _))
    (fun d k => (iblk3_apply m c t d k).trans (HostSide.wl_apply m c _))
    (fun d k => (iblk5_apply m c t d k).trans (HostSide.wr_apply m c _))
    (fun k => (iblk4_apply m c t 0 k).trans (HostSide.bl_apply m c k))
    (fun k j => (iblk6_apply m c t k _).trans (HostSide.wps_right m c k j))
    (fun j => (iblk7_apply m c t 0 _).trans (HostSide.bps_right m c j)) p q).trans ?_
  exact (outArr_ix2 _ _ _ _ _ _ _ _ _ _).symm

/-- So the head's array ends holding the layer's output for every node: the 25 blocks of 4000 rows cover the 100000 nodes. -/
theorem final9 (c : Dev nD) : (dats m 0 c).arrAt 9 cfg0.N = out6 m c :=
  (dats m 0 c).arrAt_eq_of_cover 9 (out6 m c) (fun t _ => flushed9_eq m c t) cover9

/-! ## The run, read -/

/-- The kernel's run with each head's array at the layer's output, the arguments unchanged. -/
theorem run : θ_run defs (onTc (τ := τ) (main (F := Ideal))) ⟨m, fun _ => 0, ρ⟩ fun r => ∀ c : Dev nD,
      r.2.mem ((c : Thread nD τ).loc main_v31_0) = out7 m c
      ∧ r.2.mem ((c : Thread nD τ).loc main_v31_1) = out6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final8 m c), (h c).2.1.trans (final9 m c), (h c).2.2⟩)
    (Value.run_blocks m ρ)

end Cert.KernelIdeal.Arrays

end
-- ==== Proof.RefRunA.lean ====
/-
  The reference's first stretch, read back: its first 38 host operations build the neighbour sums and counts, the means and
  the rectified hidden array (`main_v29`). From the launch contents, the fold of their results leaves the hidden array at its
  staged value of the arguments (`Read.val_main_v29`) and every argument as launched (no operation writes one).
-/
import proofs.«162632_j91268055040046_2_alg».proof.Proof.Gen.ReferenceIdeal
import proofs.«162632_j91268055040046_2_alg».proof.Proof.RefReadPatched
import Idealize.ShloMosaic.Lib.StableHlo.Run

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The first stretch: the first 38 of the program's operations (`Value.ops`), up to the rectified hidden array. -/
abbrev ops1 : List (HloOp τ sig (Elt F)) :=
  [ unary main_arg1 main_v0 ((extractStridedSlice S1x625000 ![0, 0] · slices_S2x625000_S1x625000_0_0) : (⟨S2x625000, .i32⟩ : BufTy).Contents (Elt F) → (⟨S1x625000, .i32⟩ : BufTy).Contents (Elt F)),
    reshape main_v0 main_v1 rfl shapeCasts_S1x625000_S625000,
    unary main_arg1 main_v2 ((extractStridedSlice S1x625000 ![1, 0] · slices_S2x625000_S1x625000_1_0) : (⟨S2x625000, .i32⟩ : BufTy).Contents (Elt F) → (⟨S1x625000, .i32⟩ : BufTy).Contents (Elt F)),
    reshape main_v2 main_v3 rfl shapeCasts_S1x625000_S625000,
    nullary main_c (constantI S_ 32 0#32),
    unary main_c main_v4 (broadcastInDim S625000 ![] bcast_S_S625000 : (⟨S_, .i32⟩ : BufTy).Contents (Elt F) → (⟨S625000, .i32⟩ : BufTy).Contents (Elt F)),
    binary main_v1 main_v4 main_v5 (cmpi .slt : (⟨S625000, .i32⟩ : BufTy).Contents (Elt F) → (⟨S625000, .i32⟩ : BufTy).Contents (Elt F) → (⟨S625000, .i1⟩ : BufTy).Contents (Elt F)),
    nullary main_c_0 (constantI S_ 32 100000#32),
    unary main_c_0 main_v6 (broadcastInDim S625000 ![] bcast_S_S625000 : (⟨S_, .i32⟩ : BufTy).Contents (Elt F) → (⟨S625000, .i32⟩ : BufTy).Contents (Elt F)),
    binary main_v1 main_v6 main_v7 (addi : (⟨S625000, .i32⟩ : BufTy).Contents (Elt F) → (⟨S625000, .i32⟩ : BufTy).Contents (Elt F) → (⟨S625000, .i32⟩ : BufTy).Contents (Elt F)),
    ternary main_v5 main_v7 main_v1 main_v8 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v8 main_v9 (broadcastInDim S625000x1 ![0] bcast_S625000_S625000x1_0 : (⟨S625000, .i32⟩ : BufTy).Contents (Elt F) → (⟨S625000x1, .i32⟩ : BufTy).Contents (Elt F)),
    binary main_arg0 main_v9 main_v10 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S625000x1 ![0] bcast_S625000_S625000x1_0 : (⟨S625000, .i32⟩ : BufTy).Contents (Elt F) → (⟨S625000x1, .i32⟩ : BufTy).Contents (Elt F)),
    ternary main_v11 main_v12 main_v10 main_v13 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    nullary main_cst_1 (constant S_ .f32 0x3F800000#32),
    unary main_cst_1 main_v14 (broadcastInDim S625000 ![] bcast_S_S625000 : (⟨S_, .f32⟩ : BufTy).Contents (Elt F) → (⟨S625000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S625000x1 ![0] bcast_S625000_S625000x1_0 : (⟨S625000, .i32⟩ : BufTy).Contents (Elt F) → (⟨S625000x1, .i32⟩ : BufTy).Contents (Elt F)),
    ternary main_v15 main_v16 main_v14 main_v17 ((fun x i u => Host.scatterAdd scatter_S100000_S625000x1_S625000_n_0_0_1 x i u) : (⟨S100000, .f32⟩ : BufTy).Contents (Elt F) → (⟨S625000x1, .i32⟩ : BufTy).Contents (Elt F) → (⟨S625000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    binary main_v22 main_arg2 main_v23 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v24 (broadcastInDim S1x256 ![1] bcast_S256_S1x256_1 : (⟨S256, .f32⟩ : BufTy).Contents (Elt F) → (⟨S1x256, .f32⟩ : BufTy).Contents (Elt F)),
    unary main_v24 main_v25 (broadcastInDim S100000x256 ![0, 1] bcast_S1x256_S100000x256_0_1 : (⟨S1x256, .f32⟩ : BufTy).Contents (Elt F) → (⟨S100000x256, .f32⟩ : BufTy).Contents (Elt F)),
    binary main_v23 main_v25 main_v26 (addf : (⟨S100000x256, .f32⟩ : BufTy).Contents (Elt F) → (⟨S100000x256, .f32⟩ : BufTy).Contents (Elt F) → (⟨S100000x256, .f32⟩ : BufTy).Contents (Elt F)),
    binary main_arg0 main_arg4 main_v27 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v26 main_v27 main_v28 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v28) (TRef.of (T := ⟨S100000x256, .f32⟩) main_call0_v0) (TRef.of (T := ⟨S100000x256, .f32⟩) main_v29) maximumf ]

/-! ## The first stretch, from the launch contents -/

set_option maxRecDepth 65536 in
set_option maxHeartbeats 8000000 in
/-- After the first stretch the hidden array holds its staged value of the arguments. -/
theorem hidden_read (m : (ℓ : Loc nD τ sig) → Buf (Elt F) ℓ) (c : Dev nD) :
    after (ops1 (F := F)) (launchContents m c) (Proc.devRef .tc main_v29)
      = val_main_v29 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  after_results_simp
  simp only [cast_eq]
  rfl

/-! ### No operation of the stretch writes an argument -/

theorem kept1_arg0 (m : (ℓ : Loc nD τ sig) → Buf (Elt F) ℓ) (c : Dev nD) :
    after (ops1 (F := F)) (launchContents m c) (Proc.devRef .tc main_arg0) = m ((c.tc : Thread nD τ).loc main_arg0) :=
  StableHlo.after_of_forall_not_mem (b := Proc.devRef .tc main_arg0) _ _ (List.forall_iff_forall_mem.mp (by
    simp only [ops1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept1_arg1 (m : (ℓ : Loc nD τ sig) → Buf (Elt F) ℓ) (c : Dev nD) :
    after (ops1 (F := F)) (launchContents m c) (Proc.devRef .tc main_arg1) = m ((c.tc : Thread nD τ).loc main_arg1) :=
  StableHlo.after_of_forall_not_mem (b := Proc.devRef .tc main_arg1) _ _ (List.forall_iff_forall_mem.mp (by
    simp only [ops1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept1_arg2 (m : (ℓ : Loc nD τ sig) → Buf (Elt F) ℓ) (c : Dev nD) :
    after (ops1 (F := F)) (launchContents m c) (Proc.devRef .tc main_arg2) = m ((c.tc : Thread nD τ).loc main_arg2) :=
  StableHlo.after_of_forall_not_mem (b := Proc.devRef .tc main_arg2) _ _ (List.forall_iff_forall_mem.mp (by
    simp only [ops1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept1_arg3 (m : (ℓ : Loc nD τ sig) → Buf (Elt F) ℓ) (c : Dev nD) :
    after (ops1 (F := F)) (launchContents m c) (Proc.devRef .tc main_arg3) = m ((c.tc : Thread nD τ).loc main_arg3) :=
  StableHlo.after_of_forall_not_mem (b := Proc.devRef .tc main_arg3) _ _ (List.forall_iff_forall_mem.mp (by
    simp only [ops1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept1_arg4 (m : (ℓ : Loc nD τ sig) → Buf (Elt F) ℓ) (c : Dev nD) :
    after (ops1 (F := F)) (launchContents m c) (Proc.devRef .tc main_arg4) = m ((c.tc : Thread nD τ).loc main_arg4) :=
  StableHlo.after_of_forall_not_mem (b := Proc.devRef .tc main_arg4) _ _ (List.forall_iff_forall_mem.mp (by
    simp only [ops1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept1_arg5 (m : (ℓ : Loc nD τ sig) → Buf (Elt F) ℓ) (c : Dev nD) :
    after (ops1 (F := F)) (launchContents m c) (Proc.devRef .tc main_arg5) = m ((c.tc : Thread nD τ).loc main_arg5) :=
  StableHlo.after_of_forall_not_mem (b := Proc.devRef .tc main_arg5) _ _ (List.forall_iff_forall_mem.mp (by
    simp only [ops1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept1_arg6 (m : (ℓ : Loc nD τ sig) → Buf (Elt F) ℓ) (c : Dev nD) :
    after (ops1 (F := F)) (launchContents m c) (Proc.devRef .tc main_arg6) = m ((c.tc : Thread nD τ).loc main_arg6) :=
  StableHlo.after_of_forall_not_mem (b := Proc.devRef .tc main_arg6) _ _ (List.forall_iff_forall_mem.mp (by
    simp only [ops1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept1_arg7 (m : (ℓ : Loc nD τ sig) → Buf (Elt F) ℓ) (c : Dev nD) :
    after (ops1 (F := F)) (launchContents m c) (Proc.devRef .tc main_arg7) = m ((c.tc : Thread nD τ).loc main_arg7) :=
  StableHlo.after_of_forall_not_mem (b := Proc.devRef .tc main_arg7) _ _ (List.forall_iff_forall_mem.mp (by
    simp only [ops1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept1_arg8 (m : (ℓ : Loc nD τ sig) → Buf (Elt F) ℓ) (c : Dev nD) :
    after (ops1 (F := F)) (launchContents m c) (Proc.devRef .tc main_arg8) = m ((c.tc : Thread nD τ).loc main_arg8) :=
  StableHlo.after_of_forall_not_mem (b := Proc.devRef .tc main_arg8) _ _ (List.forall_iff_forall_mem.mp (by
    simp only [ops1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

end Cert.ReferenceIdeal.HandRun

end
-- ==== Proof.RefRunB.lean ====
/-
  The reference's second stretch, read back: its last 38 host operations apply the two heads to the hidden array and take
  each head's log-softmax. From ANY contents `W` holding the hidden array's staged value and a head's weights and bias, the
  fold of their results leaves that head's result at its staged value (`Read.val_main_v38`, `val_main_v39`), and every
  argument as `W` had it. Only the hidden array and the heads' arguments are read, so the terms stay small.
-/
import proofs.«162632_j91268055040046_2_alg».proof.Proof.Gen.ReferenceIdeal
import proofs.«162632_j91268055040046_2_alg».proof.Proof.RefReadPatched
import Idealize.ShloMosaic.Lib.StableHlo.Run

set_option Elab.async false

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The second stretch: the other 38, the two heads and their log-softmaxes. -/
abbrev ops2 : List (HloOp τ sig (Elt F)) :=
  [ binary main_v29 main_arg5 main_v30 ((fun l r => Host.dotGeneral dot_S100000x256_S256x7_S100000x7_1_0_0_1_n_n none l r) : (⟨S100000x256, .f32⟩ : BufTy).Contents (Elt F) → (⟨S256x7, .f32⟩ : BufTy).Contents (Elt F) → (⟨S100000x7, .f32⟩ : BufTy).Contents (Elt F)),
    unary main_arg6 main_v31 (broadcastInDim S1x7 ![1] bcast_S7_S1x7_1 : (⟨S7, .f32⟩ : BufTy).Contents (Elt F) → (⟨S1x7, .f32⟩ : BufTy).Contents (Elt F)),
    unary main_v31 main_v32 (broadcastInDim S100000x7 ![0, 1] bcast_S1x7_S100000x7_0_1 : (⟨S1x7, .f32⟩ : BufTy).Contents (Elt F) → (⟨S100000x7, .f32⟩ : BufTy).Contents (Elt F)),
    binary main_v30 main_v32 main_v33 (addf : (⟨S100000x7, .f32⟩ : BufTy).Contents (Elt F) → (⟨S100000x7, .f32⟩ : BufTy).Contents (Elt F) → (⟨S100000x7, .f32⟩ : BufTy).Contents (Elt F)),
    binary main_v29 main_arg7 main_v34 ((fun l r => Host.dotGeneral dot_S100000x256_S256x6_S100000x6_1_0_0_1_n_n none l r) : (⟨S100000x256, .f32⟩ : BufTy).Contents (Elt F) → (⟨S256x6, .f32⟩ : BufTy).Contents (Elt F) → (⟨S100000x6, .f32⟩ : BufTy).Contents (Elt F)),
    unary main_arg8 main_v35 (broadcastInDim S1x6 ![1] bcast_S6_S1x6_1 : (⟨S6, .f32⟩ : BufTy).Contents (Elt F) → (⟨S1x6, .f32⟩ : BufTy).Contents (Elt F)),
    unary main_v35 main_v36 (broadcastInDim S100000x6 ![0, 1] bcast_S1x6_S100000x6_0_1 : (⟨S1x6, .f32⟩ : BufTy).Contents (Elt F) → (⟨S100000x6, .f32⟩ : BufTy).Contents (Elt F)),
    binary main_v34 main_v36 main_v37 (addf : (⟨S100000x6, .f32⟩ : BufTy).Contents (Elt F) → (⟨S100000x6, .f32⟩ : BufTy).Contents (Elt F) → (⟨S100000x6, .f32⟩ : BufTy).Contents (Elt F)),
    TRef.nullary (TRef.of (T := ⟨S_, .f32⟩) main_call1_cst) (constant S_ .f32 0xFF800000#32),
    TRef.binary (TRef.of (T := ⟨S100000x7, .f32⟩) main_v33) (TRef.of (T := ⟨S_, .f32⟩) main_call1_cst) (TRef.of (T := ⟨S100000, .f32⟩) main_call1_v0) (fun x v => Host.reduce FloatOps.maximumf x v reducesTo_S100000x7_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x7, .f32⟩) main_call1_v4) (broadcastInDim S100000x7 ![0, 1] bcast_S100000x1_S100000x7_0_1),
    TRef.binary (TRef.of (T := ⟨S100000x7, .f32⟩) main_v33) (TRef.of (T := ⟨S100000x7, .f32⟩) main_call1_v4) (TRef.of (T := ⟨S100000x7, .f32⟩) main_call1_v5) subf,
    TRef.unary (TRef.of (T := ⟨S100000x7, .f32⟩) main_call1_v5) (TRef.of (T := ⟨S100000x7, .f32⟩) main_call1_v6) Host.exp,
    TRef.nullary (TRef.of (T := ⟨S_, .f32⟩) main_call1_cst_1) (constant S_ .f32 0x00000000#32),
    TRef.binary (TRef.of (T := ⟨S100000x7, .f32⟩) main_call1_v6) (TRef.of (T := ⟨S_, .f32⟩) main_call1_cst_1) (TRef.of (T := ⟨S100000, .f32⟩) main_call1_v7) (fun x v => Host.reduceAdd x v reducesTo_S100000x7_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x7, .f32⟩) main_call1_v10) (broadcastInDim S100000x7 ![0, 1] bcast_S100000x1_S100000x7_0_1),
    TRef.binary (TRef.of (T := ⟨S100000x7, .f32⟩) main_call1_v5) (TRef.of (T := ⟨S100000x7, .f32⟩) main_call1_v10) (TRef.of (T := ⟨S100000x7, .f32⟩) main_v38) subf,
    TRef.nullary (TRef.of (T := ⟨S_, .f32⟩) main_call2_cst) (constant S_ .f32 0xFF800000#32),
    TRef.binary (TRef.of (T := ⟨S100000x6, .f32⟩) main_v37) (TRef.of (T := ⟨S_, .f32⟩) main_call2_cst) (TRef.of (T := ⟨S100000, .f32⟩) main_call2_v0) (fun x v => Host.reduce FloatOps.maximumf x v reducesTo_S100000x6_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x6, .f32⟩) main_call2_v4) (broadcastInDim S100000x6 ![0, 1] bcast_S100000x1_S100000x6_0_1),
    TRef.binary (TRef.of (T := ⟨S100000x6, .f32⟩) main_v37) (TRef.of (T := ⟨S100000x6, .f32⟩) main_call2_v4) (TRef.of (T := ⟨S100000x6, .f32⟩) main_call2_v5) subf,
    TRef.unary (TRef.of (T := ⟨S100000x6, .f32⟩) main_call2_v5) (TRef.of (T := ⟨S100000x6, .f32⟩) main_call2_v6) Host.exp,
    TRef.nullary (TRef.of (T := ⟨S_, .f32⟩) main_call2_cst_1) (constant S_ .f32 0x00000000#32),
    TRef.binary (TRef.of (T := ⟨S100000x6, .f32⟩) main_call2_v6) (TRef.of (T := ⟨S_, .f32⟩) main_call2_cst_1) (TRef.of (T := ⟨S100000, .f32⟩) main_call2_v7) (fun x v => Host.reduceAdd x v reducesTo_S100000x6_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x6, .f32⟩) main_call2_v10) (broadcastInDim S100000x6 ![0, 1] bcast_S100000x1_S100000x6_0_1),
    TRef.binary (TRef.of (T := ⟨S100000x6, .f32⟩) main_call2_v5) (TRef.of (T := ⟨S100000x6, .f32⟩) main_call2_v10) (TRef.of (T := ⟨S100000x6, .f32⟩) main_v39) subf ]

/-! ## The second stretch, from any contents -/

set_option maxRecDepth 65536 in
set_option maxHeartbeats 8000000 in
/-- From contents holding the hidden array's staged value and the first head's weights and bias, the second stretch leaves
    the first result at its staged value. -/
theorem head7_read (W : Valuation τ sig (Elt F)) (x0 : (⟨S100000x128, .f32⟩ : BufTy).Contents (Elt F)) (x1 : (⟨S2x625000, .i32⟩ : BufTy).Contents (Elt F))
    (x2 : (⟨S128x256, .f32⟩ : BufTy).Contents (Elt F)) (x3 : (⟨S256, .f32⟩ : BufTy).Contents (Elt F)) (x4 : (⟨S128x256, .f32⟩ : BufTy).Contents (Elt F))
    (x5 : (⟨S256x7, .f32⟩ : BufTy).Contents (Elt F)) (x6 : (⟨S7, .f32⟩ : BufTy).Contents (Elt F))
    (hH : W (Proc.devRef .tc main_v29) = val_main_v29 (F := F) x0 x1 x2 x3 x4)
    (h5 : W (Proc.devRef .tc main_arg5) = x5) (h6 : W (Proc.devRef .tc main_arg6) = x6) :
    after (ops2 (F := F)) W (Proc.devRef .tc main_v38) = val_main_v38 (F := F) x0 x1 x2 x3 x4 x5 x6 := by
  after_results_simp
  simp only [cast_eq]
  rw [hH, h5, h6]
  rfl

set_option maxRecDepth 65536 in
set_option maxHeartbeats 8000000 in
/-- … and the second result, from the second head's weights and bias. -/
theorem head6_read (W : Valuation τ sig (Elt F)) (x0 : (⟨S100000x128, .f32⟩ : BufTy).Contents (Elt F)) (x1 : (⟨S2x625000, .i32⟩ : BufTy).Contents (Elt F))
    (x2 : (⟨S128x256, .f32⟩ : BufTy).Contents (Elt F)) (x3 : (⟨S256, .f32⟩ : BufTy).Contents (Elt F)) (x4 : (⟨S128x256, .f32⟩ : BufTy).Contents (Elt F))
    (x7 : (⟨S256x6, .f32⟩ : BufTy).Contents (Elt F)) (x8 : (⟨S6, .f32⟩ : BufTy).Contents (Elt F))
    (hH : W (Proc.devRef .tc main_v29) = val_main_v29 (F := F) x0 x1 x2 x3 x4)
    (h7 : W (Proc.devRef .tc main_arg7) = x7) (h8 : W (Proc.devRef .tc main_arg8) = x8) :
    after (ops2 (F := F)) W (Proc.devRef .tc main_v39) = val_main_v39 (F := F) x0 x1 x2 x3 x4 x7 x8 := by
  after_results_simp
  simp only [cast_eq]
  rw [hH, h7, h8]
  rfl

/-! ### No operation of the stretch writes an argument -/

theorem kept2_arg0 (W : Valuation τ sig (Elt F)) :
    after (ops2 (F := F)) W (Proc.devRef .tc main_arg0) = W (Proc.devRef .tc main_arg0) :=
  StableHlo.after_of_forall_not_mem (b := Proc.devRef .tc main_arg0) _ _ (List.forall_iff_forall_mem.mp (by
    simp only [ops2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept2_arg1 (W : Valuation τ sig (Elt F)) :
    after (ops2 (F := F)) W (Proc.devRef .tc main_arg1) = W (Proc.devRef .tc main_arg1) :=
  StableHlo.after_of_forall_not_mem (b := Proc.devRef .tc main_arg1) _ _ (List.forall_iff_forall_mem.mp (by
    simp only [ops2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept2_arg2 (W : Valuation τ sig (Elt F)) :
    after (ops2 (F := F)) W (Proc.devRef .tc main_arg2) = W (Proc.devRef .tc main_arg2) :=
  StableHlo.after_of_forall_not_mem (b := Proc.devRef .tc main_arg2) _ _ (List.forall_iff_forall_mem.mp (by
    simp only [ops2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept2_arg3 (W : Valuation τ sig (Elt F)) :
    after (ops2 (F := F)) W (Proc.devRef .tc main_arg3) = W (Proc.devRef .tc main_arg3) :=
  StableHlo.after_of_forall_not_mem (b := Proc.devRef .tc main_arg3) _ _ (List.forall_iff_forall_mem.mp (by
    simp only [ops2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept2_arg4 (W : Valuation τ sig (Elt F)) :
    after (ops2 (F := F)) W (Proc.devRef .tc main_arg4) = W (Proc.devRef .tc main_arg4) :=
  StableHlo.after_of_forall_not_mem (b := Proc.devRef .tc main_arg4) _ _ (List.forall_iff_forall_mem.mp (by
    simp only [ops2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept2_arg5 (W : Valuation τ sig (Elt F)) :
    after (ops2 (F := F)) W (Proc.devRef .tc main_arg5) = W (Proc.devRef .tc main_arg5) :=
  StableHlo.after_of_forall_not_mem (b := Proc.devRef .tc main_arg5) _ _ (List.forall_iff_forall_mem.mp (by
    simp only [ops2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept2_arg6 (W : Valuation τ sig (Elt F)) :
    after (ops2 (F := F)) W (Proc.devRef .tc main_arg6) = W (Proc.devRef .tc main_arg6) :=
  StableHlo.after_of_forall_not_mem (b := Proc.devRef .tc main_arg6) _ _ (List.forall_iff_forall_mem.mp (by
    simp only [ops2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept2_arg7 (W : Valuation τ sig (Elt F)) :
    after (ops2 (F := F)) W (Proc.devRef .tc main_arg7) = W (Proc.devRef .tc main_arg7) :=
  StableHlo.after_of_forall_not_mem (b := Proc.devRef .tc main_arg7) _ _ (List.forall_iff_forall_mem.mp (by
    simp only [ops2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem kept2_arg8 (W : Valuation τ sig (Elt F)) :
    after (ops2 (F := F)) W (Proc.devRef .tc main_arg8) = W (Proc.devRef .tc main_arg8) :=
  StableHlo.after_of_forall_not_mem (b := Proc.devRef .tc main_arg8) _ _ (List.forall_iff_forall_mem.mp (by
    simp only [ops2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

end Cert.ReferenceIdeal.HandRun

end
-- ==== Proof.RefRun.lean ====
/-
  The reference's run, read in two stretches.

  The reference's @main is a straight line of 76 host operations (`Value.ops`): the first 38 (`ops1`, RefRunA.lean) end at the
  rectified hidden array; the other 38 (`ops2`, RefRunB.lean) are the two heads and their log-softmaxes. Every weakly fair
  execution terminates with each buffer at the fold of the operations' results over the launch contents
  (`StableHlo.run_seq`); that fold is the second stretch's over the first's, and each stretch has been read back by itself.
-/
import proofs.«162632_j91268055040046_2_alg».proof.Proof.RefOpsPatched
import proofs.«162632_j91268055040046_2_alg».proof.Proof.RefRunA
import proofs.«162632_j91268055040046_2_alg».proof.Proof.RefRunB
import Idealize.ShloMosaic.Lib.StableHlo.Run
import Idealize.ShloMosaic.Lib.Pipeline.Frame

noncomputable section

namespace Cert.ReferenceIdeal.HandRun

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

/-- The program is the first stretch followed by the second. -/
theorem ops_split : (ops : List (HloOp τ sig (Elt F))) = ops1 ++ ops2 := rfl

/-! ## The run -/

/-- The fold over the whole program is the second stretch's over the first's. -/
theorem after_split (V : Valuation τ sig (Elt F)) (b : DevRef τ sig) :
    after (ops (F := F)) V b = after ops2 (after ops1 V) b := by
  rw [ops_split, StableHlo.after_append]

/-- On every device, from any memory with zero counters: every weakly fair execution of @main terminates with each result
    at its staged value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = val_main_v38 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v39) = val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      (h c main_v38).trans ((after_split _ _).trans (head7_read _ _ _ _ _ _ _ _ (hidden_read m c)
        ((kept1_arg5 m c)) ((kept1_arg6 m c)))),
      (h c main_v39).trans ((after_split _ _).trans (head6_read _ _ _ _ _ _ _ _ (hidden_read m c)
        ((kept1_arg7 m c)) ((kept1_arg8 m c)))),
      (h c main_arg0).trans ((after_split _ _).trans ((kept2_arg0 _).trans (kept1_arg0 m c))),
      (h c main_arg1).trans ((after_split _ _).trans ((kept2_arg1 _).trans (kept1_arg1 m c))),
      (h c main_arg2).trans ((after_split _ _).trans ((kept2_arg2 _).trans (kept1_arg2 m c))),
      (h c main_arg3).trans ((after_split _ _).trans ((kept2_arg3 _).trans (kept1_arg3 m c))),
      (h c main_arg4).trans ((after_split _ _).trans ((kept2_arg4 _).trans (kept1_arg4 m c))),
      (h c main_arg5).trans ((after_split _ _).trans ((kept2_arg5 _).trans (kept1_arg5 m c))),
      (h c main_arg6).trans ((after_split _ _).trans ((kept2_arg6 _).trans (kept1_arg6 m c))),
      (h c main_arg7).trans ((after_split _ _).trans ((kept2_arg7 _).trans (kept1_arg7 m c))),
      (h c main_arg8).trans ((after_split _ _).trans ((kept2_arg8 _).trans (kept1_arg8 m c)))⟩)
    (run_seq scopedRefs_eq scopedSems_eq defs main (fun _ => ops) main_eq (fun _ => ops_sub) m ρ)

end Cert.ReferenceIdeal.HandRun

end
-- ==== Proof.RefValue.lean ====
/-
  The reference, read: each of its two results is the layer's output array of Spec.lean.

  The reference divides the neighbour sums by the count raised to at least one (the mean), forms the hidden row with the bias
  added before the self projection, applies each head's weights and bias, and takes the log-softmax with its row maximum
  guarded by one more maximum with −∞. Operation by operation (the read-at-an-index lemmas of the reference's run), at node
  `r`: the mean row, the hidden row (the summands re-ordered: `hidden_bias_first`), a head's logits, the guarded maximum (the
  row maximum: `max_start_rowMax`), and the result.
-/
import proofs.«162632_j91268055040046_2_alg».proof.Proof.RefReadPatched
import proofs.«162632_j91268055040046_2_alg».proof.Proof.Spec
import proofs.«162632_j91268055040046_2_alg».proof.Proof.LibRowReduce
import proofs.«162632_j91268055040046_2_alg».proof.Proof.LibLogSoftmax
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Sage

variable (x0 : (⟨S100000x128, .f32⟩ : BufTy).Contents (Elt Ideal)) (x1 : (⟨S2x625000, .i32⟩ : BufTy).Contents (Elt Ideal))
  (x2 : (⟨S128x256, .f32⟩ : BufTy).Contents (Elt Ideal)) (x3 : (⟨S256, .f32⟩ : BufTy).Contents (Elt Ideal)) (x4 : (⟨S128x256, .f32⟩ : BufTy).Contents (Elt Ideal))
  (x5 : (⟨S256x7, .f32⟩ : BufTy).Contents (Elt Ideal)) (x6 : (⟨S7, .f32⟩ : BufTy).Contents (Elt Ideal))
  (x7 : (⟨S256x6, .f32⟩ : BufTy).Contents (Elt Ideal)) (x8 : (⟨S6, .f32⟩ : BufTy).Contents (Elt Ideal))

/-- The neighbour mean of node `r`: its neighbour sum over its count raised to at least one. -/
abbrev meanRow (r : Fin 100000) : Fin 128 → EReal := fun d =>
  Ideal.div (val_main_v13 (F := Ideal) x0 x1 (ix2 r d)) (max (val_main_v17 (F := Ideal) x1 (ix1 r)) oneF)

/-- The reference's mean array at `(r, d)`. -/
theorem mean_apply (r : Fin 100000) (d : Fin 128) : val_main_v22 (F := Ideal) x0 x1 (ix2 r d) = meanRow x0 x1 r d := by
  rw [val_main_v22_apply, val_main_v21_apply, val_main_v20_apply, val_main_v19_apply, val_main_v18_apply, val_main_cst_3_apply]
  have e : idx_main_v20 (idx_main_v21 (ix2 r d)) = ix1 r := funext fun a => Fin.ext (by match a with | ⟨0, _⟩ => rfl)
  rw [e]
  rfl

/-- The hidden row of node `r`, as the row function of Spec.lean. -/
abbrev hiddenRow (r : Fin 100000) : Fin 256 → EReal :=
  hidden (meanRow x0 x1 r) (fun d => x0 (ix2 r d)) (fun d k => x2 (ix2 d k)) (fun d k => x4 (ix2 d k)) (fun k => x3 (ix1 k))

/-- The reference's rectified hidden array at `(r, h)`: the hidden unit, its summands in the other order. -/
theorem hidden_apply (r : Fin 100000) (h : Fin 256) :
    val_main_v29 (F := Ideal) x0 x1 x2 x3 x4 (ix2 r h) = hiddenRow x0 x1 x2 x3 x4 r h := by
  rw [val_main_v29_apply, val_main_v28_apply, val_main_v26_apply, val_main_v23_apply, val_main_v27_apply, val_main_v25_apply,
    val_main_v24_apply, val_main_call0_v0_apply, val_main_call0_cst_apply]
  have l23 : ∀ d : Fin 128, lidx_main_v23 (ix2 r h) d = ix2 r d := fun d =>
    funext fun a => Fin.ext (by match a with | ⟨0, _⟩ => rfl | ⟨1, _⟩ => rfl)
  have r23 : ∀ d : Fin 128, ridx_main_v23 (ix2 r h) d = ix2 d h := fun d =>
    funext fun a => Fin.ext (by match a with | ⟨0, _⟩ => rfl | ⟨1, _⟩ => rfl)
  have l27 : ∀ d : Fin 128, lidx_main_v27 (ix2 r h) d = ix2 r d := fun d =>
    funext fun a => Fin.ext (by match a with | ⟨0, _⟩ => rfl | ⟨1, _⟩ => rfl)
  have r27 : ∀ d : Fin 128, ridx_main_v27 (ix2 r h) d = ix2 d h := fun d =>
    funext fun a => Fin.ext (by match a with | ⟨0, _⟩ => rfl | ⟨1, _⟩ => rfl)
  have hb : idx_main_v24 (idx_main_v25 (ix2 r h)) = ix1 h := funext fun a => Fin.ext (by match a with | ⟨0, _⟩ => rfl)
  simp only [l23, r23, l27, r27, hb, mean_apply]
  exact hidden_bias_first (meanRow x0 x1 r) (fun d => x0 (ix2 r d)) (fun d k => x2 (ix2 d k)) (fun d k => x4 (ix2 d k))
    (fun k => x3 (ix1 k)) h

/-! ## The head of 7 classes -/

/-- The head's logits of node `r`. -/
theorem logits7_apply (r : Fin 100000) (j : Fin 7) :
    val_main_v33 (F := Ideal) x0 x1 x2 x3 x4 x5 x6 (ix2 r j)
      = logits (hiddenRow x0 x1 x2 x3 x4 r) (fun k j => x5 (ix2 k j)) (fun j => x6 (ix1 j)) j := by
  rw [val_main_v33_apply, val_main_v30_apply, val_main_v32_apply, val_main_v31_apply]
  have hl : ∀ k : Fin 256, lidx_main_v30 (ix2 r j) k = ix2 r k := fun k =>
    funext fun a => Fin.ext (by match a with | ⟨0, _⟩ => rfl | ⟨1, _⟩ => rfl)
  have hr : ∀ k : Fin 256, ridx_main_v30 (ix2 r j) k = ix2 k j := fun k =>
    funext fun a => Fin.ext (by match a with | ⟨0, _⟩ => rfl | ⟨1, _⟩ => rfl)
  have hb : idx_main_v31 (idx_main_v32 (ix2 r j)) = ix1 j := funext fun a => Fin.ext (by match a with | ⟨0, _⟩ => rfl)
  simp only [hl, hr, hb, hidden_apply]
  rfl

/-- The guarded row maximum of the head's logits of node `r`: the row maximum. -/
theorem max7_apply (r : Fin 100000) :
    val_main_call1_v2 (F := Ideal) x0 x1 x2 x3 x4 x5 x6 (ix1 r)
      = Cert.Lib.rowMax (fun j : Fin 7 => val_main_v33 (F := Ideal) x0 x1 x2 x3 x4 x5 x6 (ix2 r j)) := by
  rw [val_main_call1_v2_apply, val_main_call1_v1_apply, val_main_call1_cst_0_apply]
  unfold val_main_call1_v0
  rw [Cert.Lib.hostMax_apply (a := 100000) (n := 7) _ _ reducesTo_S100000x7_S100000_d1 (by decide) h_S_ r]
  exact Cert.Lib.max_start_rowMax _

/-- THE REFERENCE'S RESULT for the head of 7 classes is the layer's output array. -/
theorem out7_eq :
    val_main_v38 (F := Ideal) x0 x1 x2 x3 x4 x5 x6
      = outArr (val_main_v13 (F := Ideal) x0 x1) x0 (val_main_v17 (F := Ideal) x1) x2 x4 x3 x5 x6 := by
  funext i
  obtain ⟨r, q, rfl⟩ : ∃ (r : Fin 100000) (q : Fin 7), i = ix2 r q := ⟨i 0, i 1, eq_ix2 i⟩
  rw [outArr_ix2]
  show _ = Cert.Lib.logSoftmax (logits (hiddenRow x0 x1 x2 x3 x4 r) (fun k j => x5 (ix2 k j)) (fun j => x6 (ix1 j))) q
  unfold Cert.Lib.logSoftmax
  rw [val_main_v38_apply, val_main_call1_v10_apply, val_main_call1_v9_apply, val_main_call1_v8_apply, val_main_call1_v7_apply,
    val_main_call1_cst_1_apply]
  have e10 : idx_main_call1_v8 (idx_main_call1_v10 (ix2 r q)) = ix1 r := funext fun a => Fin.ext (by match a with | ⟨0, _⟩ => rfl)
  have e7 : ∀ k : Fin 7, idx_main_call1_v7 (ix1 r) k = ix2 r k := fun k =>
    funext fun a => Fin.ext (by match a with | ⟨0, _⟩ => rfl | ⟨1, _⟩ => rfl)
  have e4 : ∀ j : Fin 7, idx_main_call1_v3 (idx_main_call1_v4 (ix2 r j)) = ix1 r := fun j =>
    funext fun a => Fin.ext (by match a with | ⟨0, _⟩ => rfl)
  have h5 : ∀ j : Fin 7, val_main_call1_v5 (F := Ideal) x0 x1 x2 x3 x4 x5 x6 (ix2 r j)
      = logits (hiddenRow x0 x1 x2 x3 x4 r) (fun k j => x5 (ix2 k j)) (fun j => x6 (ix1 j)) j
        - Cert.Lib.rowMax (logits (hiddenRow x0 x1 x2 x3 x4 r) (fun k j => x5 (ix2 k j)) (fun j => x6 (ix1 j))) := fun j => by
    rw [val_main_call1_v5_apply, val_main_call1_v4_apply, val_main_call1_v3_apply, e4 j, max7_apply]
    simp only [logits7_apply]
    rfl
  simp only [e10, e7, val_main_call1_v6_apply, h5]
  rw [Ideal.ofBits_def, Ideal.ofBits_zero_f32, zero_add]
  simp only [Ideal.subf_def, Ideal.hostUnary_log_def, Ideal.hostUnary_exp_def]

/-! ## The head of 6 classes -/

/-- The head's logits of node `r`. -/
theorem logits6_apply (r : Fin 100000) (j : Fin 6) :
    val_main_v37 (F := Ideal) x0 x1 x2 x3 x4 x7 x8 (ix2 r j)
      = logits (hiddenRow x0 x1 x2 x3 x4 r) (fun k j => x7 (ix2 k j)) (fun j => x8 (ix1 j)) j := by
  rw [val_main_v37_apply, val_main_v34_apply, val_main_v36_apply, val_main_v35_apply]
  have hl : ∀ k : Fin 256, lidx_main_v34 (ix2 r j) k = ix2 r k := fun k =>
    funext fun a => Fin.ext (by match a with | ⟨0, _⟩ => rfl | ⟨1, _⟩ => rfl)
  have hr : ∀ k : Fin 256, ridx_main_v34 (ix2 r j) k = ix2 k j := fun k =>
    funext fun a => Fin.ext (by match a with | ⟨0, _⟩ => rfl | ⟨1, _⟩ => rfl)
  have hb : idx_main_v35 (idx_main_v36 (ix2 r j)) = ix1 j := funext fun a => Fin.ext (by match a with | ⟨0, _⟩ => rfl)
  simp only [hl, hr, hb, hidden_apply]
  rfl

/-- The guarded row maximum of the head's logits of node `r`: the row maximum. -/
theorem max6_apply (r : Fin 100000) :
    val_main_call2_v2 (F := Ideal) x0 x1 x2 x3 x4 x7 x8 (ix1 r)
      = Cert.Lib.rowMax (fun j : Fin 6 => val_main_v37 (F := Ideal) x0 x1 x2 x3 x4 x7 x8 (ix2 r j)) := by
  rw [val_main_call2_v2_apply, val_main_call2_v1_apply, val_main_call2_cst_0_apply]
  unfold val_main_call2_v0
  rw [Cert.Lib.hostMax_apply (a := 100000) (n := 6) _ _ reducesTo_S100000x6_S100000_d1 (by decide) h_S_ r]
  exact Cert.Lib.max_start_rowMax _

/-- THE REFERENCE'S RESULT for the head of 6 classes is the layer's output array. -/
theorem out6_eq :
    val_main_v39 (F := Ideal) x0 x1 x2 x3 x4 x7 x8
      = outArr (val_main_v13 (F := Ideal) x0 x1) x0 (val_main_v17 (F := Ideal) x1) x2 x4 x3 x7 x8 := by
  funext i
  obtain ⟨r, q, rfl⟩ : ∃ (r : Fin 100000) (q : Fin 6), i = ix2 r q := ⟨i 0, i 1, eq_ix2 i⟩
  rw [outArr_ix2]
  show _ = Cert.Lib.logSoftmax (logits (hiddenRow x0 x1 x2 x3 x4 r) (fun k j => x7 (ix2 k j)) (fun j => x8 (ix1 j))) q
  unfold Cert.Lib.logSoftmax
  rw [val_main_v39_apply, val_main_call2_v10_apply, val_main_call2_v9_apply, val_main_call2_v8_apply, val_main_call2_v7_apply,
    val_main_call2_cst_1_apply]
  have e10 : idx_main_call2_v8 (idx_main_call2_v10 (ix2 r q)) = ix1 r := funext fun a => Fin.ext (by match a with | ⟨0, _⟩ => rfl)
  have e7 : ∀ k : Fin 6, idx_main_call2_v7 (ix1 r) k = ix2 r k := fun k =>
    funext fun a => Fin.ext (by match a with | ⟨0, _⟩ => rfl | ⟨1, _⟩ => rfl)
  have e4 : ∀ j : Fin 6, idx_main_call2_v3 (idx_main_call2_v4 (ix2 r j)) = ix1 r := fun j =>
    funext fun a => Fin.ext (by match a with | ⟨0, _⟩ => rfl)
  have h5 : ∀ j : Fin 6, val_main_call2_v5 (F := Ideal) x0 x1 x2 x3 x4 x7 x8 (ix2 r j)
      = logits (hiddenRow x0 x1 x2 x3 x4 r) (fun k j => x7 (ix2 k j)) (fun j => x8 (ix1 j)) j
        - Cert.Lib.rowMax (logits (hiddenRow x0 x1 x2 x3 x4 r) (fun k j => x7 (ix2 k j)) (fun j => x8 (ix1 j))) := fun j => by
    rw [val_main_call2_v5_apply, val_main_call2_v4_apply, val_main_call2_v3_apply, e4 j, max6_apply]
    simp only [logits6_apply]
    rfl
  simp only [e10, e7, val_main_call2_v6_apply, h5]
  rw [Ideal.ofBits_def, Ideal.ofBits_zero_f32, zero_add]
  simp only [Ideal.subf_def, Ideal.hostUnary_log_def, Ideal.hostUnary_exp_def]

end Cert.ReferenceIdeal.RefValue

end
-- ==== Proof.Bridge.lean ====
/-
  The two programs build the same neighbour sums and counts.

  Before its region the kernel's host program gathers the source nodes' features and scatter-adds them, and a vector of
  ones, onto the target nodes — the same operations, with the same dimension numbers, as the reference's first lines. So
  the neighbour-sum array and the count array the region finds are the reference's staged values of the node features and
  the edge list. Neither the gather nor the scatters are opened: the two terms are one term.
-/
import proofs.«162632_j91268055040046_2_alg».proof.Proof.Gen.KernelIdeal.Frame
import proofs.«162632_j91268055040046_2_alg».proof.Proof.RefReadPatched
import Idealize.ShloMosaic.Lib.StableHlo.Run

set_option Elab.async false

noncomputable section

namespace Cert.Bridge

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ)

set_option maxRecDepth 65536 in
set_option maxHeartbeats 8000000 in
/-- The neighbour sums the region finds are the reference's, of the same node features and edge list. -/
theorem agg_same (c : Dev nD) :
    @Eq (S100000x128.Idx → EReal) (V m c main_v13)
      (Cert.ReferenceIdeal.Read.val_main_v13 (F := Ideal) (m ((c : Thread nD τ).loc main_arg0)) (m ((c : Thread nD τ).loc main_arg1))) := by
  dsimp only [Gen.V, Gen.hostOps0]; after_results_simp <;> rfl

set_option maxRecDepth 65536 in
set_option maxHeartbeats 8000000 in
/-- The neighbour counts the region finds are the reference's, of the same edge list. -/
theorem cnt_same (c : Dev nD) :
    @Eq (S100000.Idx → EReal) (V m c main_v17)
      (Cert.ReferenceIdeal.Read.val_main_v17 (F := Ideal) (m ((c : Thread nD τ).loc main_arg1))) := by
  dsimp only [Gen.V, Gen.hostOps0]; after_results_simp <;> rfl

end Cert.Bridge

end
-- ==== Proof.lean ====
/-
  The certificate of a mean-aggregating graph layer with two log-softmax heads (100000 nodes, 625000 edges, 128 features,
  256 hidden units, heads of 7 and 6 classes): the Pallas kernel against its jnp reference, equal as extended reals.

  Both programs build the neighbour-feature sums and the neighbour counts by the same host gather and scatter-adds. The
  kernel then multiplies the sums by the reciprocal of the count raised to at least one, where the reference divides by
  it: the same number, because that count is not zero (Spec.lean `mul_recip_count`). The kernel adds the hidden layer's
  bias after the self projection, the reference before: addition of extended reals is commutative and associative. The
  kernel applies both heads in one product against the concatenated weights and slices the 13 logits apart; the reference
  applies each head by itself. Each takes the log-softmax from a row maximum started at −∞, which the reference guards
  with one more maximum. No step needs the inputs to be finite, so the precondition is never opened.

  The kernel's two result arrays are the layer's output arrays (KernelArray.lean: what each grid point writes, block by
  block, over KernelRow.lean and KernelHost.lean); the reference's two results are the same arrays (RefRun.lean: its run;
  RefValue.lean: its results index by index); Bridge.lean identifies the shared host stage. The frames of the two kernel
  programs are the generated ones; the reference's frame is its run with the results dropped; the idealization rewrote
  nothing, so `preserves` is `True`.
-/
import proofs.«162632_j91268055040046_2_alg».proof.Defs
import proofs.«162632_j91268055040046_2_alg».proof.Proof.Gen.Kernel
import proofs.«162632_j91268055040046_2_alg».proof.Proof.Gen.Kernel.Frame
import proofs.«162632_j91268055040046_2_alg».proof.Proof.Gen.KernelIdeal
import proofs.«162632_j91268055040046_2_alg».proof.Proof.Gen.KernelIdeal.Frame
import proofs.«162632_j91268055040046_2_alg».proof.Proof.Gen.KernelIdeal.Value
import proofs.«162632_j91268055040046_2_alg».proof.Proof.Gen.ReferenceIdeal
import proofs.«162632_j91268055040046_2_alg».proof.Proof.Gen.Pre_finite_inputs
import proofs.«162632_j91268055040046_2_alg».proof.Proof.KernelArray
import proofs.«162632_j91268055040046_2_alg».proof.Proof.RefRun
import proofs.«162632_j91268055040046_2_alg».proof.Proof.RefValue
import proofs.«162632_j91268055040046_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.HandRun.run (F := Ideal) m ρ)

/-- The ideal pass rewrote no operation. -/
theorem preserves : Cert.preserves_Kernel_KernelIdeal := trivial

/-- From memories agreeing on the arguments both programs end with each head's array at the layer's output array of the
    kernel's arguments: the reference's staged results are that array of ITS arguments (`out7_eq`, `out6_eq`), the arguments
    agree, and the neighbour sums and counts are the same terms (`agg_same`, `cnt_same`). -/
theorem algebraic : Cert.algebraic_KernelIdeal_ReferenceIdeal := by
  intro m ρ m' ρ' _ hagree
  refine ⟨fun c => Cert.KernelIdeal.Arrays.out7 m c, fun c => Cert.KernelIdeal.Arrays.out6 m c,
    Cert.KernelIdeal.Arrays.run m ρ, ?_⟩
  refine (θ_run Cert.ReferenceIdeal.defs _ _).mono (fun _ h c => ?_) (Cert.ReferenceIdeal.HandRun.run (F := Ideal) m' ρ')
  obtain ⟨h38, h39, hargs⟩ := h c
  obtain ⟨a0, a1, a2, a3, a4, a5, a6, a7, a8⟩ := hagree c
  refine ⟨h38.trans ?_, h39.trans ?_, hargs⟩
  · rw [Cert.ReferenceIdeal.RefValue.out7_eq, a0, a1, a2, a3, a4, a5, a6]
    dsimp only [Cert.KernelIdeal.Arrays.out7]
    rw [Cert.Bridge.agg_same m c, Cert.Bridge.cnt_same m c]
  · rw [Cert.ReferenceIdeal.RefValue.out6_eq, a0, a1, a2, a3, a4, a7, a8]
    dsimp only [Cert.KernelIdeal.Arrays.out6]
    rw [Cert.Bridge.agg_same m c, Cert.Bridge.cnt_same m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
